-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x2 : Shape := ⟨2, ![100000, 2]⟩
abbrev S2x1600000 : Shape := ⟨2, ![2, 1600000]⟩
abbrev S64x256 : Shape := ⟨2, ![64, 256]⟩
abbrev S256 : Shape := ⟨1, ![256]⟩
abbrev S256x256 : Shape := ⟨2, ![256, 256]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_arg8 : FVec F S256 .f32) (main_arg14 : FVec F S256 .f32) (main_v63 : IVec S_ 1) (main_v67 : IVec S_ 1) : IVec S_ 1 :=
  let main_v68 : IVec S_ 1 := andi main_v63 main_v67
  let main_cst_26 : FVec F S_ .f32 := constant S_ .f32 0x00000000#32
  let main_v69 : FVec F S256 .f32 := broadcastInDim S256 ![] bcast_S_S256 main_cst_26
  let main_v70 : IVec S256 1 := cmpf .oge main_arg8 main_v69
  let main_c_27 : IVec S_ 1 := constantI S_ 1 1#1
  let main_v71 : IVec S_ 1 := (fun x v => Host.reduce IntOp.andi x v reducesTo_S256_S_d0 h_S_) main_v70 main_c_27
  let main_v72 : IVec S_ 1 := andi main_v68 main_v71
  let main_cst_28 : FVec F S_ .f32 := constant S_ .f32 0x00000000#32
  let main_v73 : FVec F S256 .f32 := broadcastInDim S256 ![] bcast_S_S256 main_cst_28
  let main_v74 : IVec S256 1 := cmpf .oge main_arg14 main_v73
  let main_c_29 : IVec S_ 1 := constantI S_ 1 1#1
  let main_v75 : IVec S_ 1 := (fun x v => Host.reduce IntOp.andi x v reducesTo_S256_S_d0 h_S_) main_v74 main_c_29
  let main_v76 : IVec S_ 1 := andi main_v72 main_v75
  main_v76

def fn_part3 {F : FTy → Type} [FloatOps F] (main_arg8 : FVec F S256 .f32) (main_arg12 : FVec F S256 .f32) (main_arg13 : FVec F S256 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg8 main_arg14 main_v63 main_v67

def fn_part2 {F : FTy → Type} [FloatOps F] (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg8 main_arg12 main_arg13 main_arg14 main_v48 main_v49 main_v50

def fn_part1 {F : FTy → Type} [FloatOps F] (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x64 .f32) (main_arg1 : FVec F S100000x2 .f32) (main_arg2 : IVec S2x1600000 32) (main_arg3 : FVec F S64x256 .f32) (main_arg4 : FVec F S256 .f32) (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x64 : Shape := ⟨2, ![100000, 64]⟩
abbrev S100000x2 : Shape := ⟨2, ![100000, 2]⟩
abbrev S2x1600000 : Shape := ⟨2, ![2, 1600000]⟩
abbrev S64x256 : Shape := ⟨2, ![64, 256]⟩
abbrev S256 : Shape := ⟨1, ![256]⟩
abbrev S256x256 : Shape := ⟨2, ![256, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x256 : Shape := ⟨2, ![1, 256]⟩
abbrev S100000x256 : Shape := ⟨2, ![100000, 256]⟩
abbrev S5000x64 : Shape := ⟨2, ![5000, 64]⟩
abbrev S5000x256 : Shape := ⟨2, ![5000, 256]⟩

abbrev nBuf : Space → Nat
  | .hbm => 55
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S100000x2, .f32⟩
  | .hbm, ⟨2, _⟩ => ⟨S2x1600000, .i32⟩
  | .hbm, ⟨3, _⟩ => ⟨S64x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S64x256, .bf16⟩
  | .hbm, ⟨47, _⟩ => ⟨S256x256, .bf16⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S100000x256, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x256, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S5000x256, .f32⟩
  | .local _ .vmem, ⟨13, _⟩ => ⟨S5000x256, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S256 : S_.BroadcastsInDim S256 (![] : Fin 0 → Fin S256.rank)
  bitsLt_bf16_f32 : FTy.bits .bf16 < FTy.bits .f32
  shapeCasts_S256_S1x256 : S256.ShapeCasts S1x256
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S5000x256_S5000x256_0_0 : ∀ a, (![0, 0] : Fin 2 → Nat) a + S5000x256.size a ≤ S5000x256.size a
  h_S5000x256 : 0 < S5000x256.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x256_S5000x256_1_0_0_1_n_n_wf : DotDims.WF S5000x64 S64x256 S5000x256 [1] [0] [0] [1] [] []
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x256.size a ≤ S100000x256.size a
  hwx0_10 : ∀ i : grid0.Coords, EltTy.bits .f32 = 32 ∨ (Rect.block (s := S100000x256) S5000x256.size (cc0_transform_10 i) (hinb0_10 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v34) S5000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x64 : Shape := ⟨2, ![100000, 64]⟩
abbrev S100000x2 : Shape := ⟨2, ![100000, 2]⟩
abbrev S2x1600000 : Shape := ⟨2, ![2, 1600000]⟩
abbrev S64x256 : Shape := ⟨2, ![64, 256]⟩
abbrev S256 : Shape := ⟨1, ![256]⟩
abbrev S256x256 : Shape := ⟨2, ![256, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x256 : Shape := ⟨2, ![100000, 256]⟩
abbrev S1x256 : Shape := ⟨2, ![1, 256]⟩

abbrev nBuf : Space → Nat
  | .hbm => 75
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x2, .f32⟩
  | .hbm, ⟨2, _⟩ => ⟨S2x1600000, .i32⟩
  | .hbm, ⟨3, _⟩ => ⟨S64x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S100000x64, .f32⟩
  | .hbm, ⟨33, _⟩ => ⟨S100000x256, .f32⟩
  | .hbm, ⟨34, _⟩ => ⟨S1x256, .f32⟩
  | .hbm, ⟨35, _⟩ => ⟨S100000x256, .f32⟩
  | .hbm, ⟨36, _⟩ => ⟨S100000x256, .f32⟩
  | .hbm, ⟨37, _⟩ => ⟨S1x256, .f32⟩
  | .hbm, ⟨38, _⟩ => ⟨S100000x256, .f32⟩
  | .hbm, ⟨39, _⟩ => ⟨S100000x256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S1x256, .f32⟩
  | .hbm, ⟨46, _⟩ => ⟨S100000x256, .f32⟩
  | .hbm, ⟨47, _⟩ => ⟨S100000x256, .f32⟩
  | .hbm, ⟨48, _⟩ => ⟨S1x256, .f32⟩
  | .hbm, ⟨49, _⟩ => ⟨S100000x256, .f32⟩
  | .hbm, ⟨50, _⟩ => ⟨S100000x256, .f32⟩
  | .hbm, ⟨51, _⟩ => ⟨S_, .f32⟩
  | .hbm, ⟨52, _⟩ => ⟨S100000x256, .f32⟩
  | .hbm, ⟨53, _⟩ => ⟨S100000x256, .f32⟩
  | .hbm, ⟨54, _⟩ => ⟨S100000x256, .f32⟩
  | .hbm, ⟨55, _⟩ => ⟨S1x256, .f32⟩
  | .hbm, ⟨56, _⟩ => ⟨S100000x256, .f32⟩
  | .hbm, ⟨57, _⟩ => ⟨S100000x256, .f32⟩
  | .hbm, ⟨58, _⟩ => ⟨S1x256, .f32⟩
  | .hbm, ⟨59, _⟩ => ⟨S100000x256, .f32⟩
  | .hbm, ⟨60, _⟩ => ⟨S100000x256, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S1x256, .f32⟩
  | .hbm, ⟨67, _⟩ => ⟨S100000x256, .f32⟩
  | .hbm, ⟨68, _⟩ => ⟨S100000x256, .f32⟩
  | .hbm, ⟨69, _⟩ => ⟨S1x256, .f32⟩
  | .hbm, ⟨70, _⟩ => ⟨S100000x256, .f32⟩
  | .hbm, ⟨71, _⟩ => ⟨S100000x256, .f32⟩
  | .hbm, ⟨72, _⟩ => ⟨S_, .f32⟩
  | .hbm, ⟨73, _⟩ => ⟨S100000x256, .f32⟩
  | .hbm, ⟨74, _⟩ => ⟨S100000x256, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_4 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S256 : S_.BroadcastsInDim S256 (![] : Fin 0 → Fin S256.rank)
  bcast_S_S100000x256 : S_.BroadcastsInDim S100000x256 (![] : Fin 0 → Fin S100000x256.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x256_S100000x256_1_0_0_1_n_n_wf : DotDims.WF S100000x64 S64x256 S100000x256 [1] [0] [0] [1] [] []
  dot_S100000x256_S256x256_S100000x256_1_0_0_1_n_n_wf : DotDims.WF S100000x256 S256x256 S100000x256 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.LibERealFinite.lean ====
/-
  Finite extended reals.

  An extended real is *real* when it is the coercion of a real number, that is, neither +∞ nor -∞.
  The algebraic laws that fail at the infinities (distributivity, cancelling, moving a factor across
  a sum) hold for real extended reals, so a proof that needs them first shows that every value it
  handles is real.  This file has the coercion of a finite sum, the closure of the real extended
  reals under the arithmetic operations (sum, difference, product, finite sums and products, maximum,
  minimum, the rectifier max(x, 0), a quotient by a nonzero real, the exponential), and the facts
  about a maximum taken as a fold of max from -∞ over a nonempty finite set: it is attained, it bounds
  every entry, and it is real when every entry is.  It also has distributivity on real extended
  reals (x · (y + z) = x · y + x · z, x · Σ_i f i = Σ_i x · f i), and the softmax denominator:
  for real x_l over a nonempty finite index set, Σ_l exp(x_l - max_j x_j) is a real ≥ 1, hence not 0;
  and the way in: an x with |x| < +∞ (as the float comparison decides it) is real, as are integer
  conversions and contractions of reals.
-/
import Idealize.ShloMosaic.PureOps.Ideal

namespace Idealize.ShloMosaic.LibERealLaws

open scoped BigOperators

/-! ### The coercion of a finite sum -/

/-- The coercion ℝ → [-∞, +∞] commutes with finite sums:
    the extended real of Σ_{i ∈ s} f i is Σ_{i ∈ s} of the extended reals of the f i. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion ℝ → [-∞, +∞] commutes with finite products:
    the extended real of Π_{i ∈ s} f i is Π_{i ∈ s} of the extended reals of the f i. -/
theorem coe_finset_prod {ι : Type*} (s : Finset ι) (f : ι → ℝ) :
    ((∏ i ∈ s, f i : ℝ) : EReal) = ∏ i ∈ s, (f i : EReal) := by
  classical
  induction s using Finset.induction_on with
  | empty => simp
  | insert a s ha ih => rw [Finset.prod_insert ha, Finset.prod_insert ha, EReal.coe_mul, ih]

/-! ### Real extended reals -/

/-- IsReal x: the extended real x is the coercion of a real number (it is neither +∞ nor -∞). -/
def IsReal (x : EReal) : Prop := ∃ r : ℝ, x = (r : EReal)

/-- The coercion of a real number is real. -/
theorem isReal_coe (r : ℝ) : IsReal (r : EReal) := ⟨r, rfl⟩

/-- 0 is real. -/
theorem isReal_zero : IsReal 0 := ⟨0, rfl⟩

/-- 1 is real. -/
theorem isReal_one : IsReal 1 := ⟨1, rfl⟩

/-- An integer, read as a real and then as an extended real, is real. -/
theorem isReal_intCast (z : ℤ) : IsReal (((z : ℝ)) : EReal) := ⟨z, rfl⟩

/-- A natural number, read as a real and then as an extended real, is real. -/
theorem isReal_natCast (n : ℕ) : IsReal (((n : ℝ)) : EReal) := ⟨n, rfl⟩

namespace IsReal

variable {x y : EReal}

/-- A real extended real is not +∞. -/
theorem ne_top (hx : IsReal x) : x ≠ ⊤ := by
  obtain ⟨r, rfl⟩ := hx; exact EReal.coe_ne_top r

/-- A real extended real is not -∞. -/
theorem ne_bot (hx : IsReal x) : x ≠ ⊥ := by
  obtain ⟨r, rfl⟩ := hx; exact EReal.coe_ne_bot r

/-- A real extended real is the coercion of its real part: x = ↑(toReal x). -/
theorem coe_toReal (hx : IsReal x) : ((x.toReal : ℝ) : EReal) = x :=
  EReal.coe_toReal hx.ne_top hx.ne_bot

/-- The sum of two real extended reals is real. -/
theorem add (hx : IsReal x) (hy : IsReal y) : IsReal (x + y) := by
  obtain ⟨a, rfl⟩ := hx; obtain ⟨b, rfl⟩ := hy
  exact ⟨a + b, (EReal.coe_add a b).symm⟩

/-- The negative of a real extended real is real. -/
theorem neg (hx : IsReal x) : IsReal (-x) := by
  obtain ⟨a, rfl⟩ := hx
  exact ⟨-a, (EReal.coe_neg a).symm⟩

/-- The difference of two real extended reals is real. -/
theorem sub (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem mul (hx : IsReal x) (hy : IsReal y) : IsReal (x * y) := by
  obtain ⟨a, rfl⟩ := hx; obtain ⟨b, rfl⟩ := hy
  exact ⟨a * b, (EReal.coe_mul a b).symm⟩

/-- The maximum of two real extended reals is real. -/
theorem max (hx : IsReal x) (hy : IsReal y) : IsReal (max x y) := by
  rcases max_choice x y with h | h <;> rw [h] <;> assumption

/-- The minimum of two real extended reals is real. -/
theorem min (hx : IsReal x) (hy : IsReal y) : IsReal (min x y) := by
  rcases min_choice x y with h | h <;> rw [h] <;> assumption

/-- The rectifier max(x, 0) of a real extended real is real. -/
theorem relu (hx : IsReal x) : IsReal (Max.max x 0) := hx.max isReal_zero

/-- The rectifier of a real extended real is the coercion of the real rectifier:
    max(↑r, 0) = ↑(max(r, 0)). -/
theorem relu_coe (r : ℝ) : Max.max (r : EReal) 0 = ((Max.max r 0 : ℝ) : EReal) := by
  rw [← EReal.coe_zero]; exact (EReal.coe_strictMono.monotone.map_max).symm

/-- The absolute value max(x, -x) of a real extended real is real. -/
theorem abs (hx : IsReal x) : IsReal (Max.max x (-x)) := hx.max hx.neg

/-- A finite sum of real extended reals is real. -/
theorem sum {ι : Type*} {s : Finset ι} {f : ι → EReal} (hf : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-- A sum over a whole finite index type of real extended reals is real. -/
theorem sum_univ {ι : Type*} [Fintype ι] {f : ι → EReal} (hf : ∀ i, IsReal (f i)) :
    IsReal (∑ i, f i) := sum fun i _ => hf i

/-- A finite product of real extended reals is real. -/
theorem prod {ι : Type*} {s : Finset ι} {f : ι → EReal} (hf : ∀ i ∈ s, IsReal (f i)) :
    IsReal (∏ i ∈ s, f i) := by
  classical
  induction s using Finset.induction_on with
  | empty => rw [Finset.prod_empty]; exact isReal_one
  | insert a s ha ih =>
    rw [Finset.prod_insert ha]
    exact (hf a (Finset.mem_insert_self a s)).mul (ih fun i hi => hf i (Finset.mem_insert_of_mem hi))

/-- A family of real extended reals is the coercion of a family of reals: if every f i is real
    there is g : ι → ℝ with f i = ↑(g i) for every i. -/
theorem exists_fun {ι : Type*} {f : ι → EReal} (hf : ∀ i, IsReal (f i)) :
    ∃ g : ι → ℝ, f = fun i => (g i : EReal) := by
  choose g hg using hf
  exact ⟨g, funext hg⟩

/-- The exponential of a real extended real (the exponential extended by exp(-∞) = 0,
    exp(+∞) = +∞) is the coercion of a positive real. -/
theorem exp_pos (hx : IsReal x) : ∃ r : ℝ, 0 < r ∧ Ideal.exp x = (r : EReal) := by
  obtain ⟨a, rfl⟩ := hx
  exact ⟨Real.exp a, Real.exp_pos a, Ideal.exp_coe a⟩

/-- The exponential of a real extended real is real. -/
theorem exp (hx : IsReal x) : IsReal (Ideal.exp x) := by
  obtain ⟨r, _, h⟩ := hx.exp_pos; exact ⟨r, h⟩

/-- The quotient of a real extended real by a nonzero real one is the real quotient:
    ↑a / ↑b = ↑(a / b) for b ≠ 0, division being the one that sends x / 0 to ±∞. -/
theorem div_coe (a : ℝ) {b : ℝ} (hb : b ≠ 0) :
    Ideal.div (a : EReal) (b : EReal) = ((a / b : ℝ) : EReal) := by
  rw [Ideal.div_coe hb, ← EReal.coe_mul, mul_one_div]

/-- The quotient of a real extended real by a nonzero real one is real. -/
theorem div (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe a hb⟩

/-- Multiplication distributes over addition on real extended reals: x · (y + z) = x · y + x · z.
    (It fails at the infinities: -1 · (+∞ + -∞) = +∞ but -1 · +∞ + -1 · -∞ = -∞.) -/
theorem mul_add {z : EReal} (hx : IsReal x) (hy : IsReal y) (hz : IsReal z) :
    x * (y + z) = x * y + x * z := by
  obtain ⟨a, rfl⟩ := hx; obtain ⟨b, rfl⟩ := hy; obtain ⟨c, rfl⟩ := hz
  rw [← EReal.coe_add, ← EReal.coe_mul, ← EReal.coe_mul, ← EReal.coe_mul, ← EReal.coe_add, _root_.mul_add]

/-- Multiplication distributes over addition from the right on real extended reals:
    (x + y) · z = x · z + y · z. -/
theorem add_mul {z : EReal} (hx : IsReal x) (hy : IsReal y) (hz : IsReal z) :
    (x + y) * z = x * z + y * z := by
  rw [mul_comm, mul_add hz hx hy, mul_comm z x, mul_comm z y]

/-- A real factor moves into a finite sum of real extended reals: x · Σ_{i ∈ s} f i = Σ_{i ∈ s} x · f i. -/
theorem mul_sum {ι : Type*} {s : Finset ι} {f : ι → EReal} (hx : IsReal x)
    (hf : ∀ i ∈ s, IsReal (f i)) : x * ∑ i ∈ s, f i = ∑ i ∈ s, x * f i := by
  classical
  induction s using Finset.induction_on with
  | empty => rw [Finset.sum_empty, Finset.sum_empty, mul_zero]
  | insert a s ha ih =>
    have hs : ∀ i ∈ s, IsReal (f i) := fun i hi => hf i (Finset.mem_insert_of_mem hi)
    rw [Finset.sum_insert ha, Finset.sum_insert ha,
      mul_add hx (hf a (Finset.mem_insert_self a s)) (sum hs), ih hs]

/-- A real factor moves into a finite sum of real extended reals from the right:
    (Σ_{i ∈ s} f i) · x = Σ_{i ∈ s} f i · x. -/
theorem sum_mul {ι : Type*} {s : Finset ι} {f : ι → EReal} (hx : IsReal x)
    (hf : ∀ i ∈ s, IsReal (f i)) : (∑ i ∈ s, f i) * x = ∑ i ∈ s, f i * x := by
  rw [mul_comm, mul_sum hx hf]
  exact Finset.sum_congr rfl fun i _ => mul_comm _ _

end IsReal

/-- An extended real is real exactly when it is neither -∞ nor +∞. -/
theorem isReal_iff {x : EReal} : IsReal x ↔ x ≠ ⊥ ∧ x ≠ ⊤ :=
  ⟨fun h => ⟨h.ne_bot, h.ne_top⟩, fun h => ⟨x.toReal, (EReal.coe_toReal h.2 h.1).symm⟩⟩

/-! ### The maximum as a fold of max from -∞ -/

/-- The bit pattern 0xFF800000 of the 32-bit format denotes -∞, the value a maximum is folded from. -/
theorem ofBits_neg_inf_f32 : Ideal.ofBits .f32 0xFF800000#32 = ⊥ := by
  simp [Ideal.ofBits, Ideal.ieee]

/-- Every entry is below the maximum: f i ≤ max_{j ∈ s} f j (the fold of max from any start b). -/
theorem le_fold_max_of_mem {ι : Type*} {s : Finset ι} (b : EReal) (f : ι → EReal) {i : ι} (hi : i ∈ s) :
    f i ≤ s.fold Max.max b f :=
  (Finset.le_fold_max (f i)).mpr (Or.inr ⟨i, hi, le_rfl⟩)

/-- Over a nonempty finite set the maximum folded from -∞ is attained:
    max_{j ∈ s} f j = f i for some i ∈ s. -/
theorem exists_mem_fold_max_eq {ι : Type*} {s : Finset ι} (hs : s.Nonempty) (f : ι → EReal) :
    ∃ i ∈ s, s.fold Max.max ⊥ f = f i := by
  induction hs using Finset.Nonempty.cons_induction with
  | singleton a =>
    exact ⟨a, Finset.mem_singleton_self a, by rw [Finset.fold_singleton]; exact max_eq_left bot_le⟩
  | cons a s ha hs ih =>
    obtain ⟨i, hi, h⟩ := ih
    rw [Finset.fold_cons, h]
    rcases le_total (f a) (f i) with hle | hle
    · exact ⟨i, Finset.mem_cons.mpr (Or.inr hi), max_eq_right hle⟩
    · exact ⟨a, Finset.mem_cons_self a s, max_eq_left hle⟩

/-- Over a nonempty finite set the maximum, folded from -∞, of real extended reals is real. -/
theorem IsReal.fold_max {ι : Type*} {s : Finset ι} (hs : s.Nonempty) {f : ι → EReal}
    (hf : ∀ i ∈ s, IsReal (f i)) : IsReal (s.fold Max.max ⊥ f) := by
  obtain ⟨i, hi, h⟩ := exists_mem_fold_max_eq hs f
  rw [h]; exact hf i hi

/-- Over a nonempty finite index type the maximum, folded from -∞, of real extended reals is real. -/
theorem IsReal.fold_max_univ {ι : Type*} [Fintype ι] [Nonempty ι] {f : ι → EReal}
    (hf : ∀ i, IsReal (f i)) : IsReal ((Finset.univ : Finset ι).fold Max.max ⊥ f) :=
  IsReal.fold_max Finset.univ_nonempty fun i _ => hf i

/-- The bit pattern 0x0000 of the 16-bit brain format denotes 0, the value a rectifier compares with. -/
theorem ofBits_zero_bf16 : Ideal.ofBits .bf16 0x0000#16 = 0 := by
  simp [Ideal.ofBits, Ideal.ieee]

/-! ### Reality from the float finiteness test, and of integer conversions and contractions -/

/-- The bit pattern 0x7F800000 of the 32-bit format denotes +∞. -/
theorem ofBits_pos_inf_f32 : Ideal.ofBits .f32 0x7F800000#32 = ⊤ := by
  simp [Ideal.ofBits, Ideal.ieee]

/-- An extended real whose absolute value max(x, -x) is below +∞ is real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-- If the ordered less-than comparison of two extended reals answers true (the one-bit word 1),
    the first is below the second. -/
theorem lt_of_cmp_olt {a b : EReal} (h : Ideal.cmp .olt a b = 1#1) : a < b := by
  by_cases hlt : a < b
  · exact hlt
  · exfalso; simp [Ideal.cmp, hlt] at h

/-- The finiteness test |x| < +∞ as a float comparison: if the ordered less-than comparison of
    max(x, -x) with the value of the pattern 0x7F800000 (+∞) answers true, x is real. -/
theorem isReal_of_cmp_abs_lt_inf {x : EReal}
    (h : Ideal.cmp .olt (Max.max x (-x)) (Ideal.ofBits .f32 0x7F800000#32) = 1#1) : IsReal x := by
  rw [ofBits_pos_inf_f32] at h
  exact isReal_of_abs_lt_top (lt_of_cmp_olt h)

/-- A machine integer converted to a float, signed (its integer value read as a real), is real. -/
theorem isReal_sitofp {w : ℕ} (φ : FTy) (b : BitVec w) : IsReal (FloatOps.sitofp (F := Ideal) φ b) :=
  ⟨(b.toInt : ℝ), rfl⟩

/-- A machine integer converted to a float, unsigned (its natural value read as a real), is real. -/
theorem isReal_uitofp {w : ℕ} (φ : FTy) (b : BitVec w) : IsReal (FloatOps.uitofp (F := Ideal) φ b) :=
  ⟨(b.toNat : ℝ), rfl⟩

/-- A contraction Σ_k a_k · b_k of real extended reals over a finite index type is real. -/
theorem IsReal.dot {κ : Type*} [Fintype κ] {a b : κ → EReal} (ha : ∀ k, IsReal (a k))
    (hb : ∀ k, IsReal (b k)) : IsReal (∑ k, a k * b k) :=
  IsReal.sum_univ fun k => (ha k).mul (hb k)

/-- A contraction onto an accumulator, c + Σ_k a_k · b_k, of real extended reals is real. -/
theorem IsReal.add_dot {κ : Type*} [Fintype κ] {c : EReal} {a b : κ → EReal} (hc : IsReal c)
    (ha : ∀ k, IsReal (a k)) (hb : ∀ k, IsReal (b k)) : IsReal (c + ∑ k, a k * b k) :=
  hc.add (IsReal.dot ha hb)

/-! ### The softmax denominator -/

/-- The softmax denominator over a nonempty finite set.  For real x_l (l ∈ t) and m = max_{l ∈ t} x_l
    (folded from -∞), the sum Σ_{l ∈ t} exp(x_l - m) is the coercion of a real s ≥ 1: every term is a
    positive real and the term at an index where the maximum is attained is exp 0 = 1. -/
theorem exists_softmax_denominator_finset {ι : Type*} {t : Finset ι} (ht : t.Nonempty) {x : ι → EReal}
    (hx : ∀ l ∈ t, IsReal (x l)) :
    ∃ s : ℝ, 1 ≤ s ∧ ∑ l ∈ t, Ideal.exp (x l - t.fold Max.max ⊥ x) = (s : EReal) := by
  obtain ⟨i0, hi0, hm⟩ := exists_mem_fold_max_eq ht x
  rw [hm]
  refine ⟨∑ l ∈ t, Real.exp ((x l).toReal - (x i0).toReal), ?_, ?_⟩
  · calc (1 : ℝ) = Real.exp ((x i0).toReal - (x i0).toReal) := by rw [sub_self, Real.exp_zero]
      _ ≤ ∑ l ∈ t, Real.exp ((x l).toReal - (x i0).toReal) :=
        Finset.single_le_sum (f := fun l => Real.exp ((x l).toReal - (x i0).toReal))
          (fun l _ => (Real.exp_pos _).le) hi0
  · rw [coe_finset_sum]
    refine Finset.sum_congr rfl fun l hl => ?_
    obtain ⟨a, ha⟩ := hx l hl
    obtain ⟨b, hb⟩ := hx i0 hi0
    rw [ha, hb, ← EReal.coe_sub, Ideal.exp_coe]
    simp only [EReal.toReal_coe]

/-- The softmax denominator over a nonempty finite index type.  For real x_l and m = max_l x_l (folded
    from -∞), Σ_l exp(x_l - m) is the coercion of a real s ≥ 1; in particular it is real and not 0. -/
theorem exists_softmax_denominator {ι : Type*} [Fintype ι] [Nonempty ι] {x : ι → EReal}
    (hx : ∀ l, IsReal (x l)) :
    ∃ s : ℝ, 1 ≤ s ∧ ∑ l, Ideal.exp (x l - (Finset.univ : Finset ι).fold Max.max ⊥ x) = (s : EReal) :=
  exists_softmax_denominator_finset Finset.univ_nonempty fun l _ => hx l

/-- The softmax denominator is real: for real x_l over a nonempty finite index type,
    Σ_l exp(x_l - max_j x_j) is real. -/
theorem isReal_softmax_denominator {ι : Type*} [Fintype ι] [Nonempty ι] {x : ι → EReal}
    (hx : ∀ l, IsReal (x l)) :
    IsReal (∑ l, Ideal.exp (x l - (Finset.univ : Finset ι).fold Max.max ⊥ x)) := by
  obtain ⟨s, _, h⟩ := exists_softmax_denominator hx; exact ⟨s, h⟩

/-- The softmax denominator is not 0: for real x_l over a nonempty finite index type,
    Σ_l exp(x_l - max_j x_j) ≥ 1 > 0. -/
theorem softmax_denominator_ne_zero {ι : Type*} [Fintype ι] [Nonempty ι] {x : ι → EReal}
    (hx : ∀ l, IsReal (x l)) :
    ∑ l, Ideal.exp (x l - (Finset.univ : Finset ι).fold Max.max ⊥ x) ≠ 0 := by
  obtain ⟨s, hs, h⟩ := exists_softmax_denominator hx
  rw [h]
  exact EReal.coe_ne_zero.mpr (ne_of_gt (lt_of_lt_of_le one_pos hs))

end Idealize.ShloMosaic.LibERealLaws
-- ==== Proof.LibBatchNormFold.lean ====
/-
  One layer of the network on a single row of features, over the extended reals: a linear map of the row, a bias,
  batch normalisation with fixed statistics, and the rectifier.  The normalisation is written in two ways.  As the
  statistics give it, the pre-activation z goes to (z - mean) * s + shift with s = gain / sqrt(variance + eps).
  Folded, it is z * s + (shift - mean * s).  The two agree whenever s, mean and shift are real numbers, whatever
  extended real z is: for a real z this is the distributive law, and for z = +inf or -inf both sides are the
  infinity whose sign is that of z * s (or the real shift, when s = 0).  When s is infinite they differ: with
  mean > 0 and z > mean the folded form meets inf - inf while the other is +inf.  A variance that is real and not
  negative, and a positive real eps, make s real.
-/
import Idealize.ShloMosaic.PureOps.Ideal
import proofs.«163878_j35356170780707_2_alg».proof.Proof.LibERealFinite

noncomputable section

namespace Cert.LibBatchNormFold

open Idealize.ShloMosaic Idealize.ShloMosaic.LibERealLaws
open scoped BigOperators

/-- The layer with the normalisation folded into a scale and a shift: output feature q of the row h is
    max((sum_k h k * W k q + b q) * sc q + sh q, 0). -/
def foldedRow {K N : Nat} (h : Fin K → EReal) (W : Fin K → Fin N → EReal) (b sc sh : Fin N → EReal) (q : Fin N) : EReal :=
  max ((∑ k : Fin K, h k * W k q + b q) * sc q + sh q) 0

/-- The layer with the normalisation as the statistics give it: output feature q of the row h is
    max(((sum_k h k * W k q + b q) - mean q) * s q + shift q, 0). -/
def normedRow {K N : Nat} (h : Fin K → EReal) (W : Fin K → Fin N → EReal) (b mean s shift : Fin N → EReal) (q : Fin N) : EReal :=
  max (((∑ k : Fin K, h k * W k q + b q) - mean q) * s q + shift q) 0

/-- z * s + (shift - mean * s) = (z - mean) * s + shift for real s, mean, shift and every extended real z. -/
theorem fold_law (z : EReal) (s mean shift : ℝ) :
    z * (s : EReal) + ((shift : EReal) - (mean : EReal) * (s : EReal)) = (z - (mean : EReal)) * (s : EReal) + (shift : EReal) := by
  induction z using EReal.rec with
  | bot =>
    rcases lt_trichotomy s 0 with hs | hs | hs
    · rw [EReal.bot_sub, EReal.bot_mul_coe_of_neg hs, ← EReal.coe_mul, ← EReal.coe_sub, EReal.top_add_coe, EReal.top_add_coe]
    · subst hs; simp
    · rw [EReal.bot_sub, EReal.bot_mul_coe_of_pos hs, EReal.bot_add, EReal.bot_add]
  | coe z =>
    rw [← EReal.coe_mul, ← EReal.coe_mul, ← EReal.coe_sub, ← EReal.coe_sub, ← EReal.coe_add, ← EReal.coe_mul, ← EReal.coe_add]
    congr 1; ring
  | top =>
    rcases lt_trichotomy s 0 with hs | hs | hs
    · rw [EReal.top_sub_coe, EReal.top_mul_coe_of_neg hs, EReal.bot_add, EReal.bot_add]
    · subst hs; simp
    · rw [EReal.top_sub_coe, EReal.top_mul_coe_of_pos hs, ← EReal.coe_mul, ← EReal.coe_sub, EReal.top_add_coe, EReal.top_add_coe]

/-- The folded layer with scale s and shift (shift - mean * s) is the layer as the statistics give it, when s, mean
    and shift are real at every output feature. -/
theorem foldedRow_eq_normedRow {K N : Nat} (h : Fin K → EReal) (W : Fin K → Fin N → EReal) (b mean s shift : Fin N → EReal)
    (hs : ∀ q, IsReal (s q)) (hm : ∀ q, IsReal (mean q)) (hb : ∀ q, IsReal (shift q)) :
    foldedRow h W b s (fun q => shift q - mean q * s q) = normedRow h W b mean s shift := by
  funext q
  obtain ⟨s', hs'⟩ := hs q
  obtain ⟨m', hm'⟩ := hm q
  obtain ⟨b', hb'⟩ := hb q
  unfold foldedRow normedRow
  beta_reduce
  rw [hs', hm', hb', fold_law]

/-- The word of the normalisation's eps, 1e-5 rounded to 32 bits, denotes a positive real. -/
theorem eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- gain / sqrt(variance + eps) is real for a real gain, a real variance that is not negative and a positive real eps. -/
theorem scale_isReal {g rv eps : EReal} (hg : IsReal g) (hrv : IsReal rv) (h0 : 0 ≤ rv) (he : ∃ e : ℝ, 0 < e ∧ eps = (e : EReal)) :
    IsReal (g * Ideal.rsqrt (rv + eps)) := by
  obtain ⟨g', rfl⟩ := hg
  obtain ⟨r, rfl⟩ := hrv
  obtain ⟨e, he, rfl⟩ := he
  have hr : 0 ≤ r := EReal.coe_nonneg.mp h0
  have hpos : 0 < r + e := by linarith
  refine ⟨g' * (Real.sqrt (r + e))⁻¹, ?_⟩
  rw [← EReal.coe_add, Ideal.rsqrt_coe, if_neg (not_lt.mpr hpos.le), if_neg hpos.ne', ← EReal.coe_mul]

end Cert.LibBatchNormFold

end
-- ==== Proof.LibPlainDot.lean ====
/-
  A plain matrix product read at an index.

  For the dimension numbers of an M×K by K×N product (contract the left operand's columns against the right
  operand's rows, no batch axis), the sum over the contraction index of the products of the operands at the
  dot's operand indices is the textbook sum: entry (r, c) is the sum over k of left (r, k) times right (k, c).
  The same sum reads a vector unit's matmul into a zero accumulator and the host's dot_general at the ideal
  values, so the two are one function of their operands.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The textbook product of an M×K and a K×N array of extended reals. -/
def mm {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The left operand's index at output index `j` and contraction index `q` is (row of `j`, `q`). -/
theorem lhsIdx_plain {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  have hk := contrEquiv1_symm_val (DotDims.plain M K N) K rfl rfl k
  match a with
  | ⟨0, _⟩ => rfl
  | ⟨1, _⟩ => exact ((DotDims.plain M K N).lhsIdx_val_of_single rfl j _).trans hk

/-- The right operand's index there is (`q`, column of `j`). -/
theorem rhsIdx_plain {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  have hk := contrEquiv1_symm_val (DotDims.plain M K N) K rfl rfl k
  match a with
  | ⟨0, _⟩ => exact ((DotDims.plain M K N).rhsIdx_val_of_single rfl j _).trans hk
  | ⟨1, _⟩ => rfl

/-- The contraction's sum, re-indexed by the one contracted coordinate. -/
theorem sum_plain {M K N : Nat} (A : (⟨2, ![M, K]⟩ : Shape).Idx → EReal) (B : (⟨2, ![K, N]⟩ : Shape).Idx → EReal)
    (j : (⟨2, ![M, N]⟩ : Shape).Idx) :
    ∑ q : (DotDims.plain M K N).contr.Idx, A ((DotDims.plain M K N).lhsIdx j q) * B ((DotDims.plain M K N).rhsIdx j q)
      = mm A B j := by
  unfold mm
  rw [← Equiv.sum_comp (contrEquiv1 (DotDims.plain M K N) K rfl rfl).symm]
  refine Finset.sum_congr rfl fun k _ => ?_
  rw [lhsIdx_plain, rhsIdx_plain]
  rfl

/-- A vector unit's matmul into the zero accumulator is the textbook product. -/
theorem matmul_zero_eq_mm {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant ⟨2, ![M, N]⟩ .f32 0x00000000#32) = mm A B := by
  funext j
  rw [Ideal.matmul_constant_zero_apply]
  exact sum_plain A B j

/-- The host's dot_general is the textbook product, whatever the schedule. -/
theorem dotGeneral_eq_mm {M K N : Nat} {φ₁ φ₂ : FTy} (prec : Option ContractPrecision) (sched : HostSchedule)
    (A : FVec Ideal ⟨2, ![M, K]⟩ φ₁) (B : FVec Ideal ⟨2, ![K, N]⟩ φ₂) :
    FloatOps.dotGeneral (DotDims.plain M K N) prec sched A B = mm A B := by
  funext j
  rw [Ideal.dotGeneral_apply]
  exact sum_plain A B j

end Idealize.ShloMosaic.PlainDot

end
-- ==== Proof.BlockRows.lean ====
/-
  What the kernel body leaves in its output block, entry by entry.  The body adds the node features and the
  aggregated neighbour features of its 5000 rows, multiplies by the first weight matrix on the matrix unit, adds the
  bias, applies the folded normalisation (a scale and a shift per output feature) and the rectifier, and does the
  same again with the second weight matrix.  A change of float format is the identity on the extended reals and a
  product into a zero accumulator is the textbook sum, so entry (p, q) of the block is the two folded layers applied
  to row p of the sum of the two input blocks, read at feature q: it depends on no other row.
-/
import proofs.«163878_j35356170780707_2_alg».proof.Proof.Gen.KernelIdeal.Value
import proofs.«163878_j35356170780707_2_alg».proof.Proof.LibBatchNormFold
import proofs.«163878_j35356170780707_2_alg».proof.Proof.LibPlainDot
import Idealize.ShloMosaic.Lib.ValueIdx
import Idealize.ShloMosaic.Lib.ValueLayout
import Idealize.ShloMosaic.Lib.Pipeline.Value

noncomputable section

namespace Cert.KernelIdeal.BlockRows

open Cert.KernelIdeal Cert.KernelIdeal.Gen Idealize.ShloMosaic Idealize.ShloMosaic.ValueIdx Cert.LibBatchNormFold
open scoped BigOperators

/-- A one-row array cast to its own shape and broadcast over 5000 rows reads, at (p, q), the row's entry q. -/
theorem rowBcast_at (P : FVec Ideal S1x256 .f32) (h : S1x256.ShapeCasts S1x256) (hb : S1x256.Broadcasts S5000x256)
    (p : Fin 5000) (q : Fin 256) :
    broadcastTo S5000x256 (shapeCast S1x256 P h) hb (ix2 p q) = P (ix2 (0 : Fin 1) q) := by
  rw [shapeCast_self]
  exact broadcastTo_1b_ab_apply P hb p q

/-- A one-row array broadcast over 5000 rows reads, at (p, q), the row's entry q. -/
theorem rowBcast_plain_at (P : FVec Ideal S1x256 .f32) (hb : S1x256.Broadcasts S5000x256) (p : Fin 5000) (q : Fin 256) :
    broadcastTo S5000x256 P hb (ix2 p q) = P (ix2 (0 : Fin 1) q) :=
  broadcastTo_1b_ab_apply P hb p q

/-- The first product at (p, q): the sum over the 64 input features. -/
theorem dot1_at (A : FVec Ideal S5000x64 .bf16) (B : FVec Ideal S64x256 .bf16) (p : Fin 5000) (q : Fin 256) :
    matmul dot_S5000x64_S64x256_S5000x256_1_0_0_1_n_n none A B (constant S5000x256 .f32 0x00000000#32) (ix2 p q)
      = ∑ k : Fin 64, A (ix2 p k) * B (ix2 k q) :=
  congrFun (PlainDot.matmul_zero_eq_mm (M := 5000) (K := 64) (N := 256) none A B) (ix2 p q)

/-- The second product at (p, q): the sum over the 256 hidden features. -/
theorem dot2_at (A : FVec Ideal S5000x256 .bf16) (B : FVec Ideal S256x256 .bf16) (p : Fin 5000) (q : Fin 256) :
    matmul dot_S5000x256_S256x256_S5000x256_1_0_0_1_n_n none A B (constant S5000x256 .f32 0x00000000#32) (ix2 p q)
      = ∑ k : Fin 256, A (ix2 p k) * B (ix2 k q) :=
  congrFun (PlainDot.matmul_zero_eq_mm (M := 5000) (K := 256) (N := 256) none A B) (ix2 p q)

/-- The word of +0.0 denotes 0. -/
theorem zero_word : Scalar.ofBits (F := Ideal) .f32 0x00000000#32 = (0 : EReal) := Ideal.ofBits_zero_f32

/-- Everything before the last shift and rectifier, at (p, q): the second layer's scaled pre-activation over the
    first layer's output row. -/
theorem pay2_at (P0 P1 : Vec Ideal S5000x64 .f32) (P2 : Vec Ideal S64x256 .bf16) (P3 P4 P5 : Vec Ideal S1x256 .f32)
    (P6 : Vec Ideal S256x256 .bf16) (P7 P8 : Vec Ideal S1x256 .f32) (p : Fin 5000) (q : Fin 256) :
    k0_pay2 P0 P1 P2 P3 P4 P5 P6 P7 P8 (ix2 p q)
      = (∑ k2 : Fin 256,
            foldedRow (fun k : Fin 64 => P0 (ix2 p k) + P1 (ix2 p k)) (fun k n => P2 (ix2 k n))
              (fun n => P3 (ix2 (0 : Fin 1) n)) (fun n => P4 (ix2 (0 : Fin 1) n)) (fun n => P5 (ix2 (0 : Fin 1) n)) k2
              * P6 (ix2 k2 q)
          + P7 (ix2 (0 : Fin 1) q)) * P8 (ix2 (0 : Fin 1) q) := by
  unfold k0_pay2 foldedRow
  simp only [mulf_apply, addf_apply, maximumf_apply, truncf_apply, broadcast_apply, rowBcast_at, rowBcast_plain_at, dot1_at, dot2_at,
    shapeCast_self, zero_word]

/-- Entry (p, q) of the block the body leaves: the two folded layers on row p of the sum of the two input blocks. -/
theorem block_at (P0 P1 : Vec Ideal S5000x64 .f32) (P2 : Vec Ideal S64x256 .bf16) (P3 P4 P5 : Vec Ideal S1x256 .f32)
    (P6 : Vec Ideal S256x256 .bf16) (P7 P8 P9 : Vec Ideal S1x256 .f32) (p : Fin 5000) (q : Fin 256) :
    Value.E10 P0 P1 P2 P3 P4 P5 P6 P7 P8 P9 (ix2 p q)
      = foldedRow
          (foldedRow (fun k : Fin 64 => P0 (ix2 p k) + P1 (ix2 p k)) (fun k n => P2 (ix2 k n))
            (fun n => P3 (ix2 (0 : Fin 1) n)) (fun n => P4 (ix2 (0 : Fin 1) n)) (fun n => P5 (ix2 (0 : Fin 1) n)))
          (fun k n => P6 (ix2 k n)) (fun n => P7 (ix2 (0 : Fin 1) n)) (fun n => P8 (ix2 (0 : Fin 1) n))
          (fun n => P9 (ix2 (0 : Fin 1) n)) q := by
  have e0 : Value.ix10_0 (ix2 p q) = ix2 p q := funext fun a => Fin.ext (by match a with | ⟨0, _⟩ => rfl | ⟨1, _⟩ => rfl)
  have e1 : Value.ix10_1 (ix2 p q) = ix2 (0 : Fin 1) q := funext fun a => Fin.ext (by match a with | ⟨0, _⟩ => rfl | ⟨1, _⟩ => rfl)
  show max (k0_pay2 P0 P1 P2 P3 P4 P5 P6 P7 P8 (Value.ix10_0 (ix2 p q)) + P9 (Value.ix10_1 (ix2 p q))) (Scalar.ofBits (F := Ideal) .f32 0x00000000#32) = _
  rw [e0, e1, pay2_at, zero_word]
  rfl

end Cert.KernelIdeal.BlockRows

end
-- ==== Proof.Network.lean ====
/-
  The whole network as a function of its arrays.  Node r's input row is its own features plus the features
  aggregated from its neighbours; two layers follow, each a linear map, a bias, batch normalisation with fixed
  statistics and the rectifier.  Output row r depends on input row r only.  The normalisation's scale at a feature
  is gain * rsqrt(variance + eps) and the folded shift is offset - mean * scale; with real statistics and a variance
  that is not negative the folded network is the network as the statistics give it.
-/
import Idealize.ShloMosaic.Lib.ValueIdx
import proofs.«163878_j35356170780707_2_alg».proof.Proof.LibBatchNormFold

noncomputable section

namespace Cert.Network

open Idealize.ShloMosaic Idealize.ShloMosaic.ValueIdx Idealize.ShloMosaic.LibERealLaws Cert.LibBatchNormFold

/-- An a-by-b array of extended reals. -/
abbrev Arr (a b : Nat) : Type := (⟨2, ![a, b]⟩ : Shape).Idx → EReal
/-- A vector of a extended reals. -/
abbrev Vec1 (a : Nat) : Type := (⟨1, ![a]⟩ : Shape).Idx → EReal

/-- The input row of node r: its own features plus the aggregated ones. -/
def inRow {R : Nat} (x aggr : Arr R 64) (r : Fin R) : Fin 64 → EReal := fun k => x (ix2 r k) + aggr (ix2 r k)

/-- Two folded layers on a row. -/
def foldedNet (h : Fin 64 → EReal) (W1 : Arr 64 256) (b1 sc1 sh1 : Fin 256 → EReal) (W2 : Arr 256 256)
    (b2 sc2 sh2 : Fin 256 → EReal) : Fin 256 → EReal :=
  foldedRow (foldedRow h (fun k n => W1 (ix2 k n)) b1 sc1 sh1) (fun k n => W2 (ix2 k n)) b2 sc2 sh2

/-- Two layers on a row with the normalisation as the statistics give it. -/
def normedNet (h : Fin 64 → EReal) (W1 : Arr 64 256) (b1 m1 s1 o1 : Fin 256 → EReal) (W2 : Arr 256 256)
    (b2 m2 s2 o2 : Fin 256 → EReal) : Fin 256 → EReal :=
  normedRow (normedRow h (fun k n => W1 (ix2 k n)) b1 m1 s1 o1) (fun k n => W2 (ix2 k n)) b2 m2 s2 o2

/-- With real scales, means and offsets the folded network is the network as the statistics give it. -/
theorem foldedNet_eq_normedNet (h : Fin 64 → EReal) (W1 : Arr 64 256) (b1 m1 s1 o1 : Fin 256 → EReal) (W2 : Arr 256 256)
    (b2 m2 s2 o2 : Fin 256 → EReal)
    (hs1 : ∀ q, IsReal (s1 q)) (hm1 : ∀ q, IsReal (m1 q)) (ho1 : ∀ q, IsReal (o1 q))
    (hs2 : ∀ q, IsReal (s2 q)) (hm2 : ∀ q, IsReal (m2 q)) (ho2 : ∀ q, IsReal (o2 q)) :
    foldedNet h W1 b1 s1 (fun q => o1 q - m1 q * s1 q) W2 b2 s2 (fun q => o2 q - m2 q * s2 q)
      = normedNet h W1 b1 m1 s1 o1 W2 b2 m2 s2 o2 := by
  unfold foldedNet normedNet
  rw [foldedRow_eq_normedRow _ _ _ _ _ _ hs1 hm1 ho1, foldedRow_eq_normedRow _ _ _ _ _ _ hs2 hm2 ho2]

/-- The word of the normalisation's eps. -/
abbrev epsWord : EReal := Ideal.ofBits .f32 0x3727C5AC#32

/-- gain * rsqrt(variance + eps) at one feature. -/
def scaleAt (g rv : Vec1 256) (n : Fin 256) : EReal := g (ix1 n) * Ideal.rsqrt (rv (ix1 n) + epsWord)

/-- offset - mean * scale at one feature. -/
def shiftAt (g be rm rv : Vec1 256) (n : Fin 256) : EReal := be (ix1 n) - rm (ix1 n) * scaleAt g rv n

/-- The scale is real for a real gain and a real variance that is not negative. -/
theorem scaleAt_isReal (g rv : Vec1 256) (hg : ∀ n, IsReal (g (ix1 n))) (hrv : ∀ n, IsReal (rv (ix1 n)))
    (h0 : ∀ n, 0 ≤ rv (ix1 n)) (n : Fin 256) : IsReal (scaleAt g rv n) :=
  scale_isReal (hg n) (hrv n) (h0 n) eps_pos

/-- The row of an index of the output array. -/
def rowOf (i : (⟨2, ![100000, 256]⟩ : Shape).Idx) : Fin 100000 := ⟨(i 0).val, (i 0).isLt⟩
/-- The column of an index of the output array. -/
def colOf (i : (⟨2, ![100000, 256]⟩ : Shape).Idx) : Fin 256 := ⟨(i 1).val, (i 1).isLt⟩

/-- The kernel's output array: the folded network on every node's input row, the per-feature vectors given as
    one-row arrays. -/
def kernelOut (x aggr : Arr 100000 64) (W1 : Arr 64 256) (b1 sc1 sh1 : Arr 1 256) (W2 : Arr 256 256)
    (b2 sc2 sh2 : Arr 1 256) : Arr 100000 256 :=
  fun i => foldedNet (inRow x aggr (rowOf i)) W1 (fun n => b1 (ix2 (0 : Fin 1) n)) (fun n => sc1 (ix2 (0 : Fin 1) n))
    (fun n => sh1 (ix2 (0 : Fin 1) n)) W2 (fun n => b2 (ix2 (0 : Fin 1) n)) (fun n => sc2 (ix2 (0 : Fin 1) n))
    (fun n => sh2 (ix2 (0 : Fin 1) n)) (colOf i)

/-- The network's result array from the arguments: the statistics' form on every node's input row. -/
def result (x aggr : Arr 100000 64) (W1 : Arr 64 256) (b1 g1 be1 rm1 rv1 : Vec1 256) (W2 : Arr 256 256)
    (b2 g2 be2 rm2 rv2 : Vec1 256) : Arr 100000 256 :=
  fun i => normedNet (inRow x aggr (rowOf i)) W1 (fun n => b1 (ix1 n)) (fun n => rm1 (ix1 n)) (scaleAt g1 rv1)
    (fun n => be1 (ix1 n)) W2 (fun n => b2 (ix1 n)) (fun n => rm2 (ix1 n)) (scaleAt g2 rv2) (fun n => be2 (ix1 n)) (colOf i)

end Cert.Network

end
-- ==== Proof.WholeArray.lean ====
/-
  From blocks to the array.  The grid has 20 points; point t stages rows 5000 t .. 5000 t + 4999 of the node
  features and of the aggregated features, the whole of every weight, bias, scale and shift array, and writes back
  rows 5000 t .. 5000 t + 4999 of the output.  Since an output row depends on the matching input row only, what
  point t writes back is block t of one function of the whole arrays; the 20 blocks tile the 100000 rows, so the
  output array ends holding that function.
-/
import proofs.«163878_j35356170780707_2_alg».proof.Proof.Gen.KernelIdeal.Value
import proofs.«163878_j35356170780707_2_alg».proof.Proof.BlockRows
import proofs.«163878_j35356170780707_2_alg».proof.Proof.Network
import Idealize.ShloMosaic.Lib.Pipeline.Value

noncomputable section

namespace Cert.KernelIdeal.WholeArray

open Cert.KernelIdeal Cert.KernelIdeal.Gen Idealize.ShloMosaic Idealize.ShloMosaic.ValueIdx Idealize.ShloMosaic.TcCoe
  Idealize.SL.Sem Cert.LibBatchNormFold Cert.Network
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl

/-- What the body leaves at entry y of its output block, for blocks that are the matching rows of two arrays and
    the whole of the eight others: the kernel's output function at the array index i in the same row and column. -/
theorem out_eq_kernelOut (A0 A1 : S100000x64.Idx → EReal) (A2 : S64x256.Idx → EReal) (A3 A4 A5 : S1x256.Idx → EReal)
    (A6 : S256x256.Idx → EReal) (A7 A8 A9 : S1x256.Idx → EReal)
    (x0 x1 : Vec Ideal S5000x64 .f32) (x2 : Vec Ideal S64x256 .bf16) (x3 x4 x5 : Vec Ideal S1x256 .f32)
    (x6 : Vec Ideal S256x256 .bf16) (x7 x8 x9 : Vec Ideal S1x256 .f32)
    (p : Fin 5000) (q : Fin 256) (y : S5000x256.Idx) (hy : y = ix2 p q) (i : S100000x256.Idx)
    (h0 : ∀ k : Fin 64, x0 (ix2 p k) = A0 (ix2 (rowOf i) k)) (h1 : ∀ k : Fin 64, x1 (ix2 p k) = A1 (ix2 (rowOf i) k))
    (h2 : x2 = A2) (h3 : x3 = A3) (h4 : x4 = A4) (h5 : x5 = A5) (h6 : x6 = A6) (h7 : x7 = A7) (h8 : x8 = A8) (h9 : x9 = A9)
    (hq : q = colOf i) :
    out0_10 x0 x1 x2 x3 x4 x5 x6 x7 x8 x9 y = kernelOut A0 A1 A2 A3 A4 A5 A6 A7 A8 A9 i := by
  subst hy h2 h3 h4 h5 h6 h7 h8 h9 hq
  unfold out0_10
  rw [Value.canon10_eq]
  simp only [View.ld_unit_zero (S := S5000x64) zeros2, View.ld_unit_zero (S := S64x256) zeros2,
    View.ld_unit_zero (S := S1x256) zeros2, View.ld_unit_zero (S := S256x256) zeros2]
  rw [BlockRows.block_at]
  unfold kernelOut foldedNet inRow
  simp only [h0, h1]

/-- The printed index maps over the grid: the two row-blocked inputs move with the output along the rows, every
    other input stays at block (0, 0), and the output's block index is (t, 0). -/
theorem idx_facts : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (1 : Fin 2) = 0 ∧ win0_10.index t (0 : Fin 2) ≤ 19 :=
  (by decide +kernel : ∀ t : Fin grid0.N, _)

/-- Every block of rows is some point's. -/
theorem point_of_rows : ∀ q0 : Fin 20, ∃ t : Fin cfg0.N, win0_10.index t = ![q0.val, 0] :=
  (by decide +kernel : ∀ q0 : Fin 20, ∃ t : Fin grid0.N, win0_10.index t = ![q0.val, 0])

/-- Entry (p, k) of window 0's block at point t sits in row 5000 t + p, column k, of its array. -/
theorem emb_rows0 (t : Fin cfg0.N) (p : Fin 5000) (k : Fin 64) (r : Fin 100000)
    (hr : r.val = win0_10.index t (0 : Fin 2) * 5000 + 1 * p.val) :
    ((cfg0.win 0).blk t).view.emb (ix2 p k) = ix2 r k := by
  obtain ⟨a0, a1, b0, b1, z20, z21, z30, z31, z40, z41, z50, z51, z60, z61, z70, z71, z80, z81, z90, z91, o1, o0⟩ := idx_facts t
  funext a
  apply Fin.ext
  match a with
  | ⟨0, _⟩ => show win0_0.index t (0 : Fin 2) * 5000 + 1 * p.val = r.val; omega
  | ⟨1, _⟩ => show win0_0.index t (1 : Fin 2) * 64 + 1 * k.val = k.val; omega

/-- Entry (p, k) of window 1's block at point t sits in row 5000 t + p, column k, of its array. -/
theorem emb_rows1 (t : Fin cfg0.N) (p : Fin 5000) (k : Fin 64) (r : Fin 100000)
    (hr : r.val = win0_10.index t (0 : Fin 2) * 5000 + 1 * p.val) :
    ((cfg0.win 1).blk t).view.emb (ix2 p k) = ix2 r k := by
  obtain ⟨a0, a1, b0, b1, z20, z21, z30, z31, z40, z41, z50, z51, z60, z61, z70, z71, z80, z81, z90, z91, o1, o0⟩ := idx_facts t
  funext a
  apply Fin.ext
  match a with
  | ⟨0, _⟩ => show win0_1.index t (0 : Fin 2) * 5000 + 1 * p.val = r.val; omega
  | ⟨1, _⟩ => show win0_1.index t (1 : Fin 2) * 64 + 1 * k.val = k.val; omega

/-- Window 0's block at point t holds rows 5000 t .. 5000 t + 4999 of the node features. -/
theorem iblk0_at (c : Dev nD) (t : Fin cfg0.N) (p : Fin 5000) (k : Fin 64) (r : Fin 100000)
    (hr : r.val = win0_10.index t (0 : Fin 2) * 5000 + 1 * p.val) :
    iblk m c 0 t (ix2 p k) = V m c main_arg0 (ix2 r k) := by
  unfold iblk
  show ((cfg0.win 0).blk t).view.read (Elt Ideal) (V m c main_arg0) (ix2 p k) = V m c main_arg0 (ix2 r k)
  generalize V m c main_arg0 = A
  rw [← emb_rows0 t p k r hr]
  rfl

/-- Window 1's block at point t is its array read through the block (the definition of a block). -/
theorem iblk1_eq (c : Dev nD) (t : Fin cfg0.N) :
    iblk m c 1 t = ((cfg0.win 1).blk t).view.read (Elt Ideal) (V m c (Pipeline.arrRef spec0 1)) := rfl

/-- Window 1's array is the aggregated features' buffer. -/
theorem arr1_eq (c : Dev nD) : V m c (Pipeline.arrRef spec0 1) = V m c main_v13 := rfl

/-- Any array read through window 1's block at point t shows its rows 5000 t .. 5000 t + 4999. -/
theorem read_rows1 (A : S100000x64.Idx → EReal) (t : Fin cfg0.N) (p : Fin 5000) (k : Fin 64) (r : Fin 100000)
    (hr : r.val = win0_10.index t (0 : Fin 2) * 5000 + 1 * p.val) :
    ((cfg0.win 1).blk t).view.read (Elt Ideal) A (ix2 p k) = A (ix2 r k) := by
  rw [← emb_rows1 t p k r hr]
  rfl

/-- Window 2's block at every point is the whole of its array. -/
theorem whole_blk2 (c : Dev nD) (t : Fin cfg0.N) : iblk m c 2 t = V m c main_v26 := by
  obtain ⟨a0, a1, b0, b1, z20, z21, z30, z31, z40, z41, z50, z51, z60, z61, z70, z71, z80, z81, z90, z91, o1, o0⟩ := idx_facts t
  funext y
  show V m c main_v26 (((cfg0.win 2).blk t).view.emb y) = V m c main_v26 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 256 + 1 * (y 1).val = (y 1).val; omega

/-- Window 3's block at every point is the whole of its array. -/
theorem whole_blk3 (c : Dev nD) (t : Fin cfg0.N) : iblk m c 3 t = V m c main_v28 := by
  obtain ⟨a0, a1, b0, b1, z20, z21, z30, z31, z40, z41, z50, z51, z60, z61, z70, z71, z80, z81, z90, z91, o1, o0⟩ := idx_facts t
  funext y
  show V m c main_v28 (((cfg0.win 3).blk t).view.emb y) = V m c main_v28 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- Window 4's block at every point is the whole of its array. -/
theorem whole_blk4 (c : Dev nD) (t : Fin cfg0.N) : iblk m c 4 t = V m c main_v29 := by
  obtain ⟨a0, a1, b0, b1, z20, z21, z30, z31, z40, z41, z50, z51, z60, z61, z70, z71, z80, z81, z90, z91, o1, o0⟩ := idx_facts t
  funext y
  show V m c main_v29 (((cfg0.win 4).blk t).view.emb y) = V m c main_v29 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Window 5's block at every point is the whole of its array. -/
theorem whole_blk5 (c : Dev nD) (t : Fin cfg0.N) : iblk m c 5 t = V m c main_v30 := by
  obtain ⟨a0, a1, b0, b1, z20, z21, z30, z31, z40, z41, z50, z51, z60, z61, z70, z71, z80, z81, z90, z91, o1, o0⟩ := idx_facts t
  funext y
  show V m c main_v30 (((cfg0.win 5).blk t).view.emb y) = V m c main_v30 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- Window 6's block at every point is the whole of its array. -/
theorem whole_blk6 (c : Dev nD) (t : Fin cfg0.N) : iblk m c 6 t = V m c main_v27 := by
  obtain ⟨a0, a1, b0, b1, z20, z21, z30, z31, z40, z41, z50, z51, z60, z61, z70, z71, z80, z81, z90, z91, o1, o0⟩ := idx_facts t
  funext y
  show V m c main_v27 (((cfg0.win 6).blk t).view.emb y) = V m c main_v27 y
  refine congrArg _ (funext fun a => Fin.ext ?_)
  match a with
  | ⟨0, _⟩ => show win0_6.index t (0 : Fin 2) * 256 + 1 * (y 0).val = (y 0).val; omega
  | ⟨1, _⟩ => show win0_6.index t (1 : Fin 2) * 256 + 1 * (y 1).val = (y 1).val; omega

/-- Window 7's block at every point is the whole of its array. -/
theorem whole_blk7 (c : Dev nD) (t : Fin cfg0.N) : iblk m c 7 t = V m c main_v31 := by
  obtain ⟨a0, a1, b0, b1, z20, z21, z30, z31, z40, z41, z50, z51, z60, z61, z70, z71, z80, z81, z90, z91, o1, o0⟩ := idx_facts t
  funext y
  show V m c main_v31 (((cfg0.win 7).blk t).view.emb y) = V m c main_v31 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 256 + 1 * (y 1).val = (y 1).val; omega

/-- Window 8's block at every point is the whole of its array. -/
theorem whole_blk8 (c : Dev nD) (t : Fin cfg0.N) : iblk m c 8 t = V m c main_v32 := by
  obtain ⟨a0, a1, b0, b1, z20, z21, z30, z31, z40, z41, z50, z51, z60, z61, z70, z71, z80, z81, z90, z91, o1, o0⟩ := idx_facts t
  funext y
  show V m c main_v32 (((cfg0.win 8).blk t).view.emb y) = V m c main_v32 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 256 + 1 * (y 1).val = (y 1).val; omega

/-- Window 9's block at every point is the whole of its array. -/
theorem whole_blk9 (c : Dev nD) (t : Fin cfg0.N) : iblk m c 9 t = V m c main_v33 := by
  obtain ⟨a0, a1, b0, b1, z20, z21, z30, z31, z40, z41, z50, z51, z60, z61, z70, z71, z80, z81, z90, z91, o1, o0⟩ := idx_facts t
  funext y
  show V m c main_v33 (((cfg0.win 9).blk t).view.emb y) = V m c main_v33 y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 256 + 1 * (y 1).val = (y 1).val; omega

set_option maxHeartbeats 1000000 in
/-- What point t writes back is block t of the kernel's output function of the arrays as the region finds them. -/
theorem flushed_eq (c : Dev nD) (t : Fin cfg0.N) :
    (dats m 0 c).flushed 10 t = ((cfg0.win 10).blk t).view.read (Elt Ideal)
      (kernelOut (V m c main_arg0) (V m c main_v13) (V m c main_v26) (V m c main_v28) (V m c main_v29) (V m c main_v30)
        (V m c main_v27) (V m c main_v31) (V m c main_v32) (V m c main_v33)) := by
  rw [Value.flushed10, iblk1_eq, arr1_eq]
  generalize V m c main_v13 = A1
  obtain ⟨a0, a1, b0, b1, z20, z21, z30, z31, z40, z41, z50, z51, z60, z61, z70, z71, z80, z81, z90, z91, o1, o0⟩ := idx_facts t
  funext j
  show out0_10 (iblk m c 0 t) (((cfg0.win 1).blk t).view.read (Elt Ideal) A1) (iblk m c 2 t) (iblk m c 3 t) (iblk m c 4 t) (iblk m c 5 t) (iblk m c 6 t)
      (iblk m c 7 t) (iblk m c 8 t) (iblk m c 9 t) j
    = kernelOut (V m c main_arg0) A1 (V m c main_v26) (V m c main_v28) (V m c main_v29) (V m c main_v30)
        (V m c main_v27) (V m c main_v31) (V m c main_v32) (V m c main_v33) (((cfg0.win 10).blk t).view.emb j)
  have hj0 : (j 0).val < 5000 := (j 0).isLt
  have hj1 : (j 1).val < 256 := (j 1).isLt
  refine out_eq_kernelOut (V m c main_arg0) A1 (V m c main_v26) (V m c main_v28) (V m c main_v29) (V m c main_v30)
    (V m c main_v27) (V m c main_v31) (V m c main_v32) (V m c main_v33) _ _ _ _ _ _ _ _ _ _
    ⟨(j 0).val, hj0⟩ ⟨(j 1).val, hj1⟩ j (funext fun a => by match a with | ⟨0, _⟩ => rfl | ⟨1, _⟩ => rfl)
    (((cfg0.win 10).blk t).view.emb j) ?_ ?_ (whole_blk2 m c t) (whole_blk3 m c t) (whole_blk4 m c t) (whole_blk5 m c t) (whole_blk6 m c t) (whole_blk7 m c t) (whole_blk8 m c t) (whole_blk9 m c t) ?_
  · exact fun k => iblk0_at m c t ⟨(j 0).val, hj0⟩ k (rowOf (((cfg0.win 10).blk t).view.emb j)) rfl
  · exact fun k => read_rows1 A1 t ⟨(j 0).val, hj0⟩ k (rowOf (((cfg0.win 10).blk t).view.emb j)) rfl
  · refine Fin.ext ?_
    show (j 1).val = win0_10.index t (1 : Fin 2) * 256 + 1 * (j 1).val
    omega

/-- An index of the output array is in point t's block iff each coordinate is in the block's range on its axis. -/
theorem mem_block (t : Fin cfg0.N) (i : S100000x256.Idx) :
    i ∈ ((cfg0.win 10).blk t).view.set ↔ ∀ a : Fin 2, win0_10.index t a * S5000x256.size a ≤ (i a).val
      ∧ (i a).val < win0_10.index t a * S5000x256.size a + S5000x256.size a := by
  show i ∈ ((View.whole main_v34).slice (win0_10.rect t)).set ↔ _
  rw [View.set_slice_whole, Rect.mem_set_unit]
  exact Iff.rfl

/-- Every index of the output array is in the block of the point that owns its row: row r belongs to point r / 5000. -/
theorem covered (i : S100000x256.Idx) :
    ∃ t : Fin cfg0.N, (cfg0.win 10).flush t = true ∧ i ∈ ((cfg0.win 10).blk t).view.set := by
  have hi0 : (i 0).val < 100000 := (i 0).isLt
  have hi1 : (i 1).val < 256 := (i 1).isLt
  obtain ⟨t, ht⟩ := point_of_rows ⟨(i 0).val / 5000, by omega⟩
  have q0 : win0_10.index t (0 : Fin 2) = (i 0).val / 5000 := congrFun ht 0
  have q1 : win0_10.index t (1 : Fin 2) = 0 := congrFun ht 1
  refine ⟨t, flush0_10 t, ?_⟩
  rw [mem_block]
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 256 ≤ (i 1).val ∧ (i 1).val < win0_10.index t (1 : Fin 2) * 256 + 256; omega

/-- The output array after the run is the kernel's output function of the arrays as the region finds them. -/
theorem final (c : Dev nD) :
    (dats m 0 c).arrAt 10 cfg0.N
      = kernelOut (V m c main_arg0) (V m c main_v13) (V m c main_v26) (V m c main_v28) (V m c main_v29) (V m c main_v30)
          (V m c main_v27) (V m c main_v31) (V m c main_v32) (V m c main_v33) :=
  (dats m 0 c).arrAt_eq_of_cover 10 _ (fun t _ => flushed_eq m c t) covered

/-- The kernel's run: it terminates without a fault, the output array holds the kernel's output function of the
    arrays as the region finds them, and the arguments are unchanged. -/
theorem run : θ_run defs (onTc (τ := τ) (main (F := Ideal))) ⟨m, fun _ => 0, ρ⟩ fun r => ∀ c : Dev nD,
      r.2.mem ((c : Thread nD τ).loc main_v34)
        = kernelOut (V m c main_arg0) (V m c main_v13) (V m c main_v26) (V m c main_v28) (V m c main_v29) (V m c main_v30)
            (V m c main_v27) (V m c main_v31) (V m c main_v32) (V m c main_v33)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.KernelIdeal.WholeArray

end
-- ==== Proof.LibHostIdx.lean ====
/-
  Layout operations of the host programs read at an index, over literal ranks: a vector broadcast into a one-column
  matrix, a vector cast to a one-column or one-row matrix and back.  Each moves no data: the element at (e, 0) or (0, k)
  of the matrix is the vector's element e or k.
-/
import Idealize.ShloMosaic.Lib.ValueIdx
import Idealize.ShloMosaic.Lib.Pipeline.Value

noncomputable section

namespace Cert.Lib.HostIdx

open Idealize.ShloMosaic Idealize.ShloMosaic.ValueIdx

variable {α : Type}

/-- A vector broadcast along axis 0 into a one-column matrix: entry (e, 0) is the vector's entry e. -/
theorem bcastCol_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

/-- A vector cast to a one-column matrix: entry (n, 0) is the vector's entry n. -/
theorem castCol_apply {N : Nat} (h : (⟨1, ![N]⟩ : Shape).ShapeCasts ⟨2, ![N, 1]⟩)
    (v : (⟨1, ![N]⟩ : Shape).Idx → α) (n : Fin N) :
    shapeCast ⟨2, ![N, 1]⟩ v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A one-column matrix cast to a vector: entry n is the matrix's entry (n, 0). -/
theorem castFlat_apply {N : Nat} (h : (⟨2, ![N, 1]⟩ : Shape).ShapeCasts ⟨1, ![N]⟩)
    (v : (⟨2, ![N, 1]⟩ : Shape).Idx → α) (n : Fin N) :
    shapeCast ⟨1, ![N]⟩ v h (ix1 n) = v (ix2 n (0 : Fin 1)) :=
  shapeCast_apply v h (ix1 n) (ix2 n (0 : Fin 1)) (by
    rw [Shape.rowMajor_val_one, Shape.rowMajor_val_two]
    show n.val * 1 + 0 = n.val
    omega)

/-- A vector cast to a one-row matrix: entry (0, k) is the vector's entry k. -/
theorem castRow_apply {D : Nat} (h : (⟨1, ![D]⟩ : Shape).ShapeCasts ⟨2, ![1, D]⟩)
    (v : (⟨1, ![D]⟩ : Shape).Idx → α) (k : Fin D) :
    shapeCast ⟨2, ![1, D]⟩ v h (ix2 (0 : Fin 1) k) = v (ix1 k) :=
  shapeCast_apply v h (ix2 (0 : Fin 1) k) (ix1 k) (by
    rw [Shape.rowMajor_val_one, Shape.rowMajor_val_two]
    show k.val = 0 * D + k.val
    omega)

/-- A one-column matrix cast to a one-row matrix: entry (0, q) is the column's entry (q, 0). -/
theorem castColRow_apply {D : Nat} (h : (⟨2, ![D, 1]⟩ : Shape).ShapeCasts ⟨2, ![1, D]⟩)
    (v : (⟨2, ![D, 1]⟩ : Shape).Idx → α) (q : Fin D) :
    shapeCast ⟨2, ![1, D]⟩ v h (ix2 (0 : Fin 1) q) = v (ix2 q (0 : Fin 1)) :=
  shapeCast_apply v h (ix2 (0 : Fin 1) q) (ix2 q (0 : Fin 1)) (by
    rw [Shape.rowMajor_val_two, Shape.rowMajor_val_two]
    show q.val * 1 + 0 = 0 * D + q.val
    omega)

end Cert.Lib.HostIdx

end
-- ==== Proof.Operands.lean ====
/-
  What the region finds in the arrays its windows stage.  Window 0 stages the node features, an argument.  Window 1
  stages the aggregated neighbour features: the host gathers the source node's row for every edge and adds it into
  the destination node's row, the same two operations, on the same index arithmetic, as the reference's.  Windows 2
  and 6 stage the two weight matrices after a change of float format, the identity on the extended reals.  Windows
  3 and 7 stage the biases as one-row arrays.  Windows 4, 5, 8 and 9 stage the folded normalisation of each layer as
  one-row arrays: scale = gain * rsqrt(variance + eps) and shift = offset - mean * scale, feature by feature.
-/
import proofs.«163878_j35356170780707_2_alg».proof.Proof.Gen.KernelIdeal.Frame
import proofs.«163878_j35356170780707_2_alg».proof.Proof.Gen.ReferenceIdeal.Read
import proofs.«163878_j35356170780707_2_alg».proof.Proof.LibHostIdx
import proofs.«163878_j35356170780707_2_alg».proof.Proof.Network
import Idealize.ShloMosaic.Lib.ValueIdx
import Idealize.ShloMosaic.Lib.StableHlo.Run

noncomputable section

namespace Cert.KernelIdeal.Operands

open Cert.KernelIdeal Cert.KernelIdeal.Gen Idealize.ShloMosaic Idealize.ShloMosaic.ValueIdx Idealize.ShloMosaic.TcCoe
  Idealize.SL.Sem Idealize.ShloMosaic.StableHlo Cert.Lib.HostIdx Cert.Network

variable (m : (ℓ : Loc nD τ sig) → Buf (Elt Ideal) ℓ)

/-- A splat of a scalar constant, added to a vector and put through the host's rsqrt, times a gain, at one entry. -/
theorem scale_vec_at (g rv : FVec Ideal S256 .f32) (hb : S_.BroadcastsInDim S256 (![] : Fin 0 → Fin S256.rank)) (n : Fin 256) :
    mulf g (Host.rsqrt (addf rv (broadcastInDim S256 ![] hb (constant S_ .f32 0x3727C5AC#32)))) (ix1 n) = scaleAt g rv n := by
  unfold scaleAt
  simp only [mulf, Host.rsqrt, addf, broadcastInDim, constant, Ideal.hostUnary_rsqrt_def, Ideal.mulf_def, Ideal.addf_def,
    Ideal.ofBits_def]

set_option maxRecDepth 8192 in
set_option maxHeartbeats 2000000 in
/-- Window 1's array is the reference's aggregation term of the node features and the edge list. -/
theorem aggr_eq (c : Dev nD) :
    (V m c main_v13 : S100000x64.Idx → EReal)
      = Cert.ReferenceIdeal.Read.val_main_v13 (F := Ideal) (m ((c : Thread nD τ).loc main_arg0)) (m ((c : Thread nD τ).loc main_arg2)) := by
  dsimp only [Gen.V, Gen.hostOps0]
  after_results_simp <;> rfl

set_option maxRecDepth 8192 in
set_option maxHeartbeats 2000000 in
/-- Window 2's array, the first weight matrix after the format change, is the argument. -/
theorem w1_eq (c : Dev nD) : (V m c main_v26 : S64x256.Idx → EReal) = m ((c : Thread nD τ).loc main_arg3) := by
  dsimp only [Gen.V, Gen.hostOps0]
  after_results_simp <;> rfl

set_option maxRecDepth 8192 in
set_option maxHeartbeats 2000000 in
/-- Window 6's array, the second weight matrix after the format change, is the argument. -/
theorem w2_eq (c : Dev nD) : (V m c main_v27 : S256x256.Idx → EReal) = m ((c : Thread nD τ).loc main_arg9) := by
  dsimp only [Gen.V, Gen.hostOps0]
  after_results_simp <;> rfl

set_option maxRecDepth 8192 in
set_option maxHeartbeats 2000000 in
/-- Window 3's one row is the first bias. -/
theorem b1_at (c : Dev nD) (n : Fin 256) :
    (V m c main_v28 : S1x256.Idx → EReal) (ix2 (0 : Fin 1) n) = m ((c : Thread nD τ).loc main_arg4) (ix1 n) := by
  have e : (V m c main_v28 : S1x256.Idx → EReal) = shapeCast S1x256 (m ((c : Thread nD τ).loc main_arg4)) Facts₀.shapeCasts_S256_S1x256 := by
    dsimp only [Gen.V, Gen.hostOps0]
    after_results_simp <;> rfl
  rw [e]
  exact castRow_apply _ _ n

set_option maxRecDepth 8192 in
set_option maxHeartbeats 2000000 in
/-- Window 7's one row is the second bias. -/
theorem b2_at (c : Dev nD) (n : Fin 256) :
    (V m c main_v31 : S1x256.Idx → EReal) (ix2 (0 : Fin 1) n) = m ((c : Thread nD τ).loc main_arg10) (ix1 n) := by
  have e : (V m c main_v31 : S1x256.Idx → EReal) = shapeCast S1x256 (m ((c : Thread nD τ).loc main_arg10)) Facts₀.shapeCasts_S256_S1x256 := by
    dsimp only [Gen.V, Gen.hostOps0]
    after_results_simp <;> rfl
  rw [e]
  exact castRow_apply _ _ n

set_option maxRecDepth 8192 in
set_option maxHeartbeats 2000000 in
/-- Window 4's one row is the first layer's scale. -/
theorem sc1_at (c : Dev nD) (n : Fin 256) :
    (V m c main_v29 : S1x256.Idx → EReal) (ix2 (0 : Fin 1) n)
      = scaleAt (m ((c : Thread nD τ).loc main_arg5)) (m ((c : Thread nD τ).loc main_arg8)) n := by
  have e : (V m c main_v29 : S1x256.Idx → EReal)
      = shapeCast S1x256 (mulf (m ((c : Thread nD τ).loc main_arg5)) (Host.rsqrt (addf (m ((c : Thread nD τ).loc main_arg8))
          (broadcastInDim S256 ![] Facts₀.bcast_S_S256 (constant (F := Ideal) S_ .f32 0x3727C5AC#32))))) Facts₀.shapeCasts_S256_S1x256 := by
    dsimp only [Gen.V, Gen.hostOps0]
    after_results_simp <;> rfl
  rw [e, castRow_apply]
  exact scale_vec_at _ _ _ n

set_option maxRecDepth 8192 in
set_option maxHeartbeats 2000000 in
/-- Window 8's one row is the second layer's scale. -/
theorem sc2_at (c : Dev nD) (n : Fin 256) :
    (V m c main_v32 : S1x256.Idx → EReal) (ix2 (0 : Fin 1) n)
      = scaleAt (m ((c : Thread nD τ).loc main_arg11)) (m ((c : Thread nD τ).loc main_arg14)) n := by
  have e : (V m c main_v32 : S1x256.Idx → EReal)
      = shapeCast S1x256 (mulf (m ((c : Thread nD τ).loc main_arg11)) (Host.rsqrt (addf (m ((c : Thread nD τ).loc main_arg14))
          (broadcastInDim S256 ![] Facts₀.bcast_S_S256 (constant (F := Ideal) S_ .f32 0x3727C5AC#32))))) Facts₀.shapeCasts_S256_S1x256 := by
    dsimp only [Gen.V, Gen.hostOps0]
    after_results_simp <;> rfl
  rw [e, castRow_apply]
  exact scale_vec_at _ _ _ n

set_option maxRecDepth 8192 in
set_option maxHeartbeats 2000000 in
/-- Window 5's one row is the first layer's shift. -/
theorem sh1_at (c : Dev nD) (n : Fin 256) :
    (V m c main_v30 : S1x256.Idx → EReal) (ix2 (0 : Fin 1) n)
      = shiftAt (m ((c : Thread nD τ).loc main_arg5)) (m ((c : Thread nD τ).loc main_arg6)) (m ((c : Thread nD τ).loc main_arg7))
          (m ((c : Thread nD τ).loc main_arg8)) n := by
  have e : (V m c main_v30 : S1x256.Idx → EReal)
      = shapeCast S1x256 (subf (m ((c : Thread nD τ).loc main_arg6)) (mulf (m ((c : Thread nD τ).loc main_arg7))
          (mulf (m ((c : Thread nD τ).loc main_arg5)) (Host.rsqrt (addf (m ((c : Thread nD τ).loc main_arg8))
            (broadcastInDim S256 ![] Facts₀.bcast_S_S256 (constant (F := Ideal) S_ .f32 0x3727C5AC#32))))))) Facts₀.shapeCasts_S256_S1x256 := by
    dsimp only [Gen.V, Gen.hostOps0]
    after_results_simp <;> rfl
  rw [e, castRow_apply]
  unfold shiftAt
  rw [← scale_vec_at (m ((c : Thread nD τ).loc main_arg5)) (m ((c : Thread nD τ).loc main_arg8)) Facts₀.bcast_S_S256 n]
  rfl

set_option maxRecDepth 8192 in
set_option maxHeartbeats 2000000 in
/-- Window 9's one row is the second layer's shift. -/
theorem sh2_at (c : Dev nD) (n : Fin 256) :
    (V m c main_v33 : S1x256.Idx → EReal) (ix2 (0 : Fin 1) n)
      = shiftAt (m ((c : Thread nD τ).loc main_arg11)) (m ((c : Thread nD τ).loc main_arg12)) (m ((c : Thread nD τ).loc main_arg13))
          (m ((c : Thread nD τ).loc main_arg14)) n := by
  have e : (V m c main_v33 : S1x256.Idx → EReal)
      = shapeCast S1x256 (subf (m ((c : Thread nD τ).loc main_arg12)) (mulf (m ((c : Thread nD τ).loc main_arg13))
          (mulf (m ((c : Thread nD τ).loc main_arg11)) (Host.rsqrt (addf (m ((c : Thread nD τ).loc main_arg14))
            (broadcastInDim S256 ![] Facts₀.bcast_S_S256 (constant (F := Ideal) S_ .f32 0x3727C5AC#32))))))) Facts₀.shapeCasts_S256_S1x256 := by
    dsimp only [Gen.V, Gen.hostOps0]
    after_results_simp <;> rfl
  rw [e, castRow_apply]
  unfold shiftAt
  rw [← scale_vec_at (m ((c : Thread nD τ).loc main_arg11)) (m ((c : Thread nD τ).loc main_arg14)) Facts₀.bcast_S_S256 n]
  rfl

end Cert.KernelIdeal.Operands

end
-- ==== Proof.PreFacts.lean ====
/-
  What the precondition says of the normalisation's statistics.  The precondition is a conjunction of sixteen
  tests, each an "all entries" reduction: fourteen say that every entry of a float input has absolute value below
  +inf, and two say that every entry of a variance input is at least 0.  At the extended reals an entry with
  absolute value below +inf is a real number.  Read here: the gain, offset, mean and variance of both layers are
  real at every feature, and both variances are not negative.
-/
import proofs.«163878_j35356170780707_2_alg».proof.Pre_finite_inputs
import proofs.«163878_j35356170780707_2_alg».proof.Proof.Gen.Pre_finite_inputs
import proofs.«163878_j35356170780707_2_alg».proof.Proof.LibERealFinite
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.LibERealLaws Cert.Pre_finite_inputs

instance : Subsingleton S_.Idx := ⟨fun a b => funext fun d => d.elim0⟩

/-- The conjunction of two one-bit words is 1 exactly when both are. -/
theorem and1 : ∀ a b : BitVec 1, IntOp.andi a b = 1#1 ↔ a = 1#1 ∧ b = 1#1 := by decide

/-- "All entries have absolute value below +inf" makes every entry real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ValueIdx.ix0 = 1#1) (i : s.Idx) : IsReal (x i) := by
  have h := Host.reduce_andi_all _ _ hr hu _ e i
  exact isReal_of_cmp_abs_lt_inf h

/-- "All entries are at least 0" makes every entry at least 0. -/
theorem nonneg_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .oge x (broadcastInDim s ![] hb (constant S_ .f32 0x00000000#32)))
      (constantI S_ 1 1#1) hr hu ValueIdx.ix0 = 1#1) (i : s.Idx) : 0 ≤ x i := by
  have h := Host.reduce_andi_all _ _ hr hu _ e i
  have h' : Ideal.cmp .oge (x i) (Ideal.ofBits .f32 0x00000000#32) = 1#1 := h
  rw [Ideal.ofBits_zero_f32] at h'
  by_contra hn
  simp [Ideal.cmp, hn] at h'

/-- The precondition decoded: the statistics of both layers are real and both variances are not negative. -/
theorem decode (a0 : FVec Ideal S100000x64 .f32) (a1 : FVec Ideal S100000x2 .f32) (a2 : IVec S2x1600000 32)
    (a3 : FVec Ideal S64x256 .f32) (a4 a5 a6 a7 a8 : FVec Ideal S256 .f32) (a9 : FVec Ideal S256x256 .f32)
    (a10 a11 a12 a13 a14 : FVec Ideal S256 .f32)
    (h : fn (F := Ideal) a0 a1 a2 a3 a4 a5 a6 a7 a8 a9 a10 a11 a12 a13 a14 = fun _ => 1#1) :
    ((∀ i, IsReal (a5 i)) ∧ (∀ i, IsReal (a6 i)) ∧ (∀ i, IsReal (a7 i)) ∧ (∀ i, IsReal (a8 i)) ∧ (∀ i, 0 ≤ a8 i))
    ∧ ((∀ i, IsReal (a11 i)) ∧ (∀ i, IsReal (a12 i)) ∧ (∀ i, IsReal (a13 i)) ∧ (∀ i, IsReal (a14 i)) ∧ (∀ i, 0 ≤ a14 i)) := by
  have e := congrFun h ValueIdx.ix0
  unfold fn fn_part1 fn_part2 fn_part3 fn_part4 at e
  simp only [andi, and1] at e
  obtain ⟨⟨⟨⟨⟨⟨⟨⟨⟨⟨⟨⟨⟨⟨⟨-, -⟩, -⟩, -⟩, h5⟩, h6⟩, h7⟩, h8⟩, -⟩, -⟩, h11⟩, h12⟩, h13⟩, h14⟩, p8⟩, p14⟩ := e
  exact ⟨⟨real_of_all a5 _ _ _ h5, real_of_all a6 _ _ _ h6, real_of_all a7 _ _ _ h7, real_of_all a8 _ _ _ h8,
      nonneg_of_all a8 _ _ _ p8⟩,
    ⟨real_of_all a11 _ _ _ h11, real_of_all a12 _ _ _ h12, real_of_all a13 _ _ _ h13, real_of_all a14 _ _ _ h14,
      nonneg_of_all a14 _ _ _ p14⟩⟩

end Cert.PreFacts

end
-- ==== Proof.Bridge.lean ====
/-
  The kernel's output array as a function of the arguments.  The arrays the region stages are the arguments
  themselves, the aggregated neighbour features, and the folded scale and shift of each layer; under the
  precondition the gain, offset, mean and variance of each layer are real and the variance is not negative, so each
  scale is real and folding the normalisation changes nothing.  The output array is then the network's result
  function of the arguments: on every node's input row, two layers with the normalisation as the statistics give it.
-/
import proofs.«163878_j35356170780707_2_alg».proof.Proof.WholeArray
import proofs.«163878_j35356170780707_2_alg».proof.Proof.Operands
import proofs.«163878_j35356170780707_2_alg».proof.Proof.PreFacts
import proofs.«163878_j35356170780707_2_alg».proof.Proof.Network

noncomputable section

namespace Cert.KernelIdeal.Bridge

open Cert.KernelIdeal Cert.KernelIdeal.Gen Idealize.ShloMosaic Idealize.ShloMosaic.ValueIdx Idealize.ShloMosaic.TcCoe
  Idealize.SL.Sem Idealize.ShloMosaic.LibERealLaws Cert.LibBatchNormFold Cert.Network

variable (m : (ℓ : Loc nD τ sig) → Buf (Elt Ideal) ℓ)

theorem kernelOut_eq_result (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) = fun _ => 1#1) :
    kernelOut (V m c main_arg0) (V m c main_v13) (V m c main_v26) (V m c main_v28) (V m c main_v29) (V m c main_v30)
        (V m c main_v27) (V m c main_v31) (V m c main_v32) (V m c main_v33)
      = result (m ((c : Thread nD τ).loc main_arg0))
          (Cert.ReferenceIdeal.Read.val_main_v13 (F := Ideal) (m ((c : Thread nD τ).loc main_arg0)) (m ((c : Thread nD τ).loc main_arg2)))
          (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  obtain ⟨⟨hg1, hbe1, hrm1, hrv1, hp1⟩, ⟨hg2, hbe2, hrm2, hrv2, hp2⟩⟩ := Cert.PreFacts.decode _ _ _ _ _ _ _ _ _ _ _ _ _ _ _ hpre
  rw [V_main_arg0, Operands.aggr_eq, Operands.w1_eq, Operands.w2_eq]
  funext i
  unfold kernelOut result
  have e3 : (fun n : Fin 256 => (V m c main_v28 : S1x256.Idx → EReal) (ix2 (0 : Fin 1) n))
      = fun n => (m ((c : Thread nD τ).loc main_arg4)) (ix1 n) := funext fun n => Operands.b1_at m c n
  have e4 : (fun n : Fin 256 => (V m c main_v29 : S1x256.Idx → EReal) (ix2 (0 : Fin 1) n))
      = scaleAt (m ((c : Thread nD τ).loc main_arg5)) (m ((c : Thread nD τ).loc main_arg8)) := funext fun n => Operands.sc1_at m c n
  have e5 : (fun n : Fin 256 => (V m c main_v30 : S1x256.Idx → EReal) (ix2 (0 : Fin 1) n))
      = shiftAt (m ((c : Thread nD τ).loc main_arg5)) (m ((c : Thread nD τ).loc main_arg6)) (m ((c : Thread nD τ).loc main_arg7)) (m ((c : Thread nD τ).loc main_arg8)) :=
    funext fun n => Operands.sh1_at m c n
  have e7 : (fun n : Fin 256 => (V m c main_v31 : S1x256.Idx → EReal) (ix2 (0 : Fin 1) n))
      = fun n => (m ((c : Thread nD τ).loc main_arg10)) (ix1 n) := funext fun n => Operands.b2_at m c n
  have e8 : (fun n : Fin 256 => (V m c main_v32 : S1x256.Idx → EReal) (ix2 (0 : Fin 1) n))
      = scaleAt (m ((c : Thread nD τ).loc main_arg11)) (m ((c : Thread nD τ).loc main_arg14)) := funext fun n => Operands.sc2_at m c n
  have e9 : (fun n : Fin 256 => (V m c main_v33 : S1x256.Idx → EReal) (ix2 (0 : Fin 1) n))
      = shiftAt (m ((c : Thread nD τ).loc main_arg11)) (m ((c : Thread nD τ).loc main_arg12)) (m ((c : Thread nD τ).loc main_arg13)) (m ((c : Thread nD τ).loc main_arg14)) :=
    funext fun n => Operands.sh2_at m c n
  rw [e3, e4, e5, e7, e8, e9]
  exact congrFun (foldedNet_eq_normedNet _ _ _ (fun n => (m ((c : Thread nD τ).loc main_arg7)) (ix1 n))
    (scaleAt (m ((c : Thread nD τ).loc main_arg5)) (m ((c : Thread nD τ).loc main_arg8))) (fun n => (m ((c : Thread nD τ).loc main_arg6)) (ix1 n)) _ _
    (fun n => (m ((c : Thread nD τ).loc main_arg13)) (ix1 n)) (scaleAt (m ((c : Thread nD τ).loc main_arg11)) (m ((c : Thread nD τ).loc main_arg14)))
    (fun n => (m ((c : Thread nD τ).loc main_arg12)) (ix1 n))
    (scaleAt_isReal _ _ (fun n => hg1 (ix1 n)) (fun n => hrv1 (ix1 n)) (fun n => hp1 (ix1 n)))
    (fun n => hrm1 (ix1 n)) (fun n => hbe1 (ix1 n))
    (scaleAt_isReal _ _ (fun n => hg2 (ix1 n)) (fun n => hrv2 (ix1 n)) (fun n => hp2 (ix1 n)))
    (fun n => hrm2 (ix1 n)) (fun n => hbe2 (ix1 n))) (colOf i)

end Cert.KernelIdeal.Bridge

end
-- ==== Proof.RefRows.lean ====
/-
  The reference's result, entry by entry.  The reference adds the aggregated neighbour features to the node
  features, multiplies by the first weight matrix (a product with one contracted axis: the sum over the 64 input
  features), adds the bias, subtracts the mean, multiplies by gain * rsqrt(variance + eps), adds the offset and
  rectifies; then the same with the second weight matrix over the 256 hidden features.  Every per-feature vector
  reaches the [100000, 256] arrays through two broadcasts, so entry (r, q) reads the vector at q.  Entry (r, q) of
  the result is therefore the two layers, with the normalisation as the statistics give it, on node r's input row.
-/
import proofs.«163878_j35356170780707_2_alg».proof.Proof.Gen.ReferenceIdeal.Read
import proofs.«163878_j35356170780707_2_alg».proof.Proof.Network
import Idealize.ShloMosaic.Lib.ValueIdx

noncomputable section

namespace Cert.ReferenceIdeal.RefRows

open Cert.ReferenceIdeal Cert.ReferenceIdeal.Read Idealize.ShloMosaic Idealize.ShloMosaic.ValueIdx Cert.LibBatchNormFold Cert.Network
open scoped BigOperators

/-! ## The per-feature vectors at an entry -/

theorem bias1_at (x4 : (⟨S256, .f32⟩ : BufTy).Contents (Elt Ideal)) (r : Fin 100000) (q : Fin 256) : val_main_v17 (F := Ideal) x4 (ix2 r q) = x4 (ix1 q) := by
  rw [val_main_v17_apply, val_main_v16_apply]
  exact congrArg x4 (funext fun a => Fin.ext (by match a with | ⟨0, _⟩ => rfl))

theorem mean1_at (x7 : (⟨S256, .f32⟩ : BufTy).Contents (Elt Ideal)) (r : Fin 100000) (q : Fin 256) : val_main_v20 (F := Ideal) x7 (ix2 r q) = x7 (ix1 q) := by
  rw [val_main_v20_apply, val_main_v19_apply]
  exact congrArg x7 (funext fun a => Fin.ext (by match a with | ⟨0, _⟩ => rfl))

theorem offset1_at (x6 : (⟨S256, .f32⟩ : BufTy).Contents (Elt Ideal)) (r : Fin 100000) (q : Fin 256) : val_main_v30 (F := Ideal) x6 (ix2 r q) = x6 (ix1 q) := by
  rw [val_main_v30_apply, val_main_v29_apply]
  exact congrArg x6 (funext fun a => Fin.ext (by match a with | ⟨0, _⟩ => rfl))

theorem bias2_at (x10 : (⟨S256, .f32⟩ : BufTy).Contents (Elt Ideal)) (r : Fin 100000) (q : Fin 256) : val_main_v36 (F := Ideal) x10 (ix2 r q) = x10 (ix1 q) := by
  rw [val_main_v36_apply, val_main_v35_apply]
  exact congrArg x10 (funext fun a => Fin.ext (by match a with | ⟨0, _⟩ => rfl))

theorem mean2_at (x13 : (⟨S256, .f32⟩ : BufTy).Contents (Elt Ideal)) (r : Fin 100000) (q : Fin 256) : val_main_v39 (F := Ideal) x13 (ix2 r q) = x13 (ix1 q) := by
  rw [val_main_v39_apply, val_main_v38_apply]
  exact congrArg x13 (funext fun a => Fin.ext (by match a with | ⟨0, _⟩ => rfl))

theorem offset2_at (x12 : (⟨S256, .f32⟩ : BufTy).Contents (Elt Ideal)) (r : Fin 100000) (q : Fin 256) : val_main_v49 (F := Ideal) x12 (ix2 r q) = x12 (ix1 q) := by
  rw [val_main_v49_apply, val_main_v48_apply]
  exact congrArg x12 (funext fun a => Fin.ext (by match a with | ⟨0, _⟩ => rfl))

theorem scale1_at (x5 x8 : (⟨S256, .f32⟩ : BufTy).Contents (Elt Ideal)) (r : Fin 100000) (q : Fin 256) :
    val_main_v27 (F := Ideal) x5 x8 (ix2 r q) = scaleAt x5 x8 q := by
  rw [val_main_v27_apply, val_main_v26_apply, val_main_v25_apply, val_main_v24_apply, val_main_v23_apply, val_main_v22_apply,
    val_main_cst_1_apply]
  have e : idx_main_v26 (idx_main_v27 (ix2 r q)) = ix1 q := funext fun a => Fin.ext (by match a with | ⟨0, _⟩ => rfl)
  rw [e]
  rfl

theorem scale2_at (x11 x14 : (⟨S256, .f32⟩ : BufTy).Contents (Elt Ideal)) (r : Fin 100000) (q : Fin 256) :
    val_main_v46 (F := Ideal) x11 x14 (ix2 r q) = scaleAt x11 x14 q := by
  rw [val_main_v46_apply, val_main_v45_apply, val_main_v44_apply, val_main_v43_apply, val_main_v42_apply, val_main_v41_apply,
    val_main_cst_3_apply]
  have e : idx_main_v45 (idx_main_v46 (ix2 r q)) = ix1 q := funext fun a => Fin.ext (by match a with | ⟨0, _⟩ => rfl)
  rw [e]
  rfl

/-! ## The two layers at an entry -/

/-- The first layer's output at (r, q). -/
theorem hidden_at (x0 : (⟨S100000x64, .f32⟩ : BufTy).Contents (Elt Ideal)) (x2 : (⟨S2x1600000, .i32⟩ : BufTy).Contents (Elt Ideal)) (x3 : (⟨S64x256, .f32⟩ : BufTy).Contents (Elt Ideal)) (x4 x5 x6 x7 x8 : (⟨S256, .f32⟩ : BufTy).Contents (Elt Ideal)) (r : Fin 100000) (q : Fin 256) :
    val_main_v33 (F := Ideal) x0 x2 x3 x4 x5 x6 x7 x8 (ix2 r q)
      = normedRow (inRow x0 (val_main_v13 (F := Ideal) x0 x2) r) (fun k n => x3 (ix2 k n)) (fun n => x4 (ix1 n))
          (fun n => x7 (ix1 n)) (scaleAt x5 x8) (fun n => x6 (ix1 n)) q := by
  rw [val_main_v33_apply, val_main_v31_apply, val_main_v28_apply, val_main_v21_apply, val_main_v18_apply, val_main_v15_apply,
    bias1_at, mean1_at, scale1_at, offset1_at, val_main_v32_apply, val_main_cst_2_apply]
  have el : ∀ k : Fin 64, lidx_main_v15 (ix2 r q) k = ix2 r k := fun k =>
    funext fun a => Fin.ext (by match a with | ⟨0, _⟩ => rfl | ⟨1, _⟩ => rfl)
  have er : ∀ k : Fin 64, ridx_main_v15 (ix2 r q) k = ix2 k q := fun k =>
    funext fun a => Fin.ext (by match a with | ⟨0, _⟩ => rfl | ⟨1, _⟩ => rfl)
  simp only [el, er, val_main_v14_apply]
  unfold normedRow inRow
  simp only [Ideal.maximumf_def, Ideal.addf_def, Ideal.subf_def, Ideal.mulf_def, Ideal.ofBits_def, Ideal.ofBits_zero_f32]

/-- The result at (r, q). -/
theorem result_at (x0 : (⟨S100000x64, .f32⟩ : BufTy).Contents (Elt Ideal)) (x2 : (⟨S2x1600000, .i32⟩ : BufTy).Contents (Elt Ideal)) (x3 : (⟨S64x256, .f32⟩ : BufTy).Contents (Elt Ideal)) (x4 x5 x6 x7 x8 : (⟨S256, .f32⟩ : BufTy).Contents (Elt Ideal)) (x9 : (⟨S256x256, .f32⟩ : BufTy).Contents (Elt Ideal)) (x10 x11 x12 x13 x14 : (⟨S256, .f32⟩ : BufTy).Contents (Elt Ideal))
    (r : Fin 100000) (q : Fin 256) :
    val_main_v52 (F := Ideal) x0 x2 x3 x4 x5 x6 x7 x8 x9 x10 x11 x12 x13 x14 (ix2 r q)
      = normedNet (inRow x0 (val_main_v13 (F := Ideal) x0 x2) r) x3 (fun n => x4 (ix1 n)) (fun n => x7 (ix1 n)) (scaleAt x5 x8)
          (fun n => x6 (ix1 n)) x9 (fun n => x10 (ix1 n)) (fun n => x13 (ix1 n)) (scaleAt x11 x14) (fun n => x12 (ix1 n)) q := by
  rw [val_main_v52_apply, val_main_v50_apply, val_main_v47_apply, val_main_v40_apply, val_main_v37_apply, val_main_v34_apply,
    bias2_at, mean2_at, scale2_at, offset2_at, val_main_v51_apply, val_main_cst_4_apply]
  have el : ∀ k : Fin 256, lidx_main_v34 (ix2 r q) k = ix2 r k := fun k =>
    funext fun a => Fin.ext (by match a with | ⟨0, _⟩ => rfl | ⟨1, _⟩ => rfl)
  have er : ∀ k : Fin 256, ridx_main_v34 (ix2 r q) k = ix2 k q := fun k =>
    funext fun a => Fin.ext (by match a with | ⟨0, _⟩ => rfl | ⟨1, _⟩ => rfl)
  simp only [el, er, hidden_at]
  unfold normedNet normedRow
  simp only [Ideal.maximumf_def, Ideal.addf_def, Ideal.subf_def, Ideal.mulf_def, Ideal.ofBits_def, Ideal.ofBits_zero_f32]

/-- The reference's result array is the network's result function of its arguments and the aggregated features. -/
theorem result_eq (x0 : (⟨S100000x64, .f32⟩ : BufTy).Contents (Elt Ideal)) (x2 : (⟨S2x1600000, .i32⟩ : BufTy).Contents (Elt Ideal)) (x3 : (⟨S64x256, .f32⟩ : BufTy).Contents (Elt Ideal)) (x4 x5 x6 x7 x8 : (⟨S256, .f32⟩ : BufTy).Contents (Elt Ideal)) (x9 : (⟨S256x256, .f32⟩ : BufTy).Contents (Elt Ideal)) (x10 x11 x12 x13 x14 : (⟨S256, .f32⟩ : BufTy).Contents (Elt Ideal)) :
    val_main_v52 (F := Ideal) x0 x2 x3 x4 x5 x6 x7 x8 x9 x10 x11 x12 x13 x14
      = result x0 (val_main_v13 (F := Ideal) x0 x2) x3 x4 x5 x6 x7 x8 x9 x10 x11 x12 x13 x14 := by
  funext i
  obtain ⟨r, q, rfl⟩ : ∃ (r : Fin 100000) (q : Fin 256), i = ix2 r q := ⟨i 0, i 1, eq_ix2 i⟩
  rw [result_at]
  rfl

end Cert.ReferenceIdeal.RefRows

end
-- ==== Proof.lean ====
/-
  A graph-network encoder on 100000 nodes with 64 features and 1600000 directed edges.  Each node's features are
  added to the sum of its in-neighbours' features (a gather of the source rows and a scatter-add into the destination
  rows); two layers follow, each a linear map (64 to 256, then 256 to 256), a bias, batch normalisation with fixed
  statistics and the rectifier.

  The kernel computes the aggregation on the host exactly as the reference does, folds each layer's normalisation
  into a scale s = gain * rsqrt(variance + eps) and a shift = offset - mean * s, and runs the two layers on blocks of
  5000 rows: 20 grid points, each reading its own rows of the node features and of the aggregated features and the
  whole of every weight, bias, scale and shift, and writing its own rows of the result.  The reference applies
  ((h W + b) - mean) * s + offset.

  On the extended reals the changes of float format are the identity and both matrix products are the textbook sums,
  so the two programs differ only by the fold z * s + (offset - mean * s) = (z - mean) * s + offset.  That holds for
  every extended real z as soon as s, mean and offset are real, and s is real when the gain is real and the variance
  is real and not negative (eps > 0).  Without the bound on the variance the claim is false: at variance = -eps the
  scale is +inf, the folded form meets inf - inf, and the results differ.  The precondition therefore asks, beyond
  finite inputs, that both variance vectors be nowhere negative, the domain on which the reference's rsqrt is defined.

  The three frames are the generated ones (the reference's is its generated run with the result dropped); the
  idealization rewrote no operation, so its conjunct is trivial; the value claim sets the kernel's run, read block by
  block into one function of the arguments, beside the reference's run, read entry by entry into the same function.
-/
import proofs.«163878_j35356170780707_2_alg».proof.Defs
import proofs.«163878_j35356170780707_2_alg».proof.Proof.Gen.Kernel
import proofs.«163878_j35356170780707_2_alg».proof.Proof.Gen.Kernel.Skeleton
import proofs.«163878_j35356170780707_2_alg».proof.Proof.Gen.Kernel.Launch
import proofs.«163878_j35356170780707_2_alg».proof.Proof.Gen.Kernel.Points
import proofs.«163878_j35356170780707_2_alg».proof.Proof.Gen.Kernel.Frame
import proofs.«163878_j35356170780707_2_alg».proof.Proof.Gen.KernelIdeal
import proofs.«163878_j35356170780707_2_alg».proof.Proof.Gen.KernelIdeal.Skeleton
import proofs.«163878_j35356170780707_2_alg».proof.Proof.Gen.KernelIdeal.Launch
import proofs.«163878_j35356170780707_2_alg».proof.Proof.Gen.KernelIdeal.Points
import proofs.«163878_j35356170780707_2_alg».proof.Proof.Gen.KernelIdeal.Frame
import proofs.«163878_j35356170780707_2_alg».proof.Proof.Gen.ReferenceIdeal
import proofs.«163878_j35356170780707_2_alg».proof.Proof.Gen.Pre_finite_inputs
import proofs.«163878_j35356170780707_2_alg».proof.Proof.Gen.KernelIdeal.Value
import proofs.«163878_j35356170780707_2_alg».proof.Proof.Gen.ReferenceIdeal.Run
import proofs.«163878_j35356170780707_2_alg».proof.Proof.Gen.ReferenceIdeal.Read
import proofs.«163878_j35356170780707_2_alg».proof.Proof.Bridge
import proofs.«163878_j35356170780707_2_alg».proof.Proof.RefRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the network's result function of the arguments: the kernel's by its blocks and the fold of the
    normalisation, the reference's entry by entry. -/
theorem algebraic : Cert.algebraic_KernelIdeal_ReferenceIdeal := by
  intro m ρ m' ρ' hpre hagree
  refine ⟨fun c => Cert.Network.result (m ((c.tc : Thread Cert.KernelIdeal.nD Cert.KernelIdeal.τ).loc Cert.KernelIdeal.main_arg0))
      (Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · refine (θ_run Cert.KernelIdeal.defs _ _).mono (fun r h c => ⟨(h c).1.trans ?_, (h c).2⟩)
      (Cert.KernelIdeal.WholeArray.run m ρ)
    exact Cert.KernelIdeal.Bridge.kernelOut_eq_result m c (hpre c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v52_eq, Cert.ReferenceIdeal.RefRows.result_eq,
      (hagree c).1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2.1,
      (hagree c).2.2.2.2.2.2.2.2.2.2.2.2.1,
      (hagree c).2.2.2.2.2.2.2.2.2.2.2.2.2.1,
      (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
